-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg7 : FVec F S2x128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_cst_20 : FVec F S_ .f32 := constant S_ .f32 0x00000000#32
  let main_v54 : FVec F S2x128 .f32 := broadcastInDim S2x128 ![] bcast_S_S2x128 main_cst_20
  let main_v55 : IVec S2x128 1 := cmpf .oge main_arg7 main_v54
  let main_c_21 : IVec S_ 1 := constantI S_ 1 1#1
  let main_v56 : IVec S_ 1 := (fun x v => Host.reduce IntOp.andi x v reducesTo_S2x128_S_d0_1 h_S_) main_v55 main_c_21
  let main_v57 : IVec S_ 1 := andi main_v53 main_v56
  main_v57

def fn_part2 {F : FTy → Type} [FloatOps F] (main_arg7 : FVec F S2x128 .f32) (main_arg8 : FVec F S128x64 .f32) (main_arg9 : FVec F S64 .f32) (main_arg10 : FVec F S64x1 .f32) (main_arg11 : FVec F S1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg7 main_v48 main_v49 main_v50

def fn_part1 {F : FTy → Type} [FloatOps F] (main_arg5 : FVec F S2x128 .f32) (main_arg6 : FVec F S2x128 .f32) (main_arg7 : FVec F S2x128 .f32) (main_arg8 : FVec F S128x64 .f32) (main_arg9 : FVec F S64 .f32) (main_arg10 : FVec F S64x1 .f32) (main_arg11 : FVec F S1 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : IVec S2x1600000 32) (main_arg2 : FVec F S2x128x128 .f32) (main_arg3 : FVec F S2x128 .f32) (main_arg4 : FVec F S2x128 .f32) (main_arg5 : FVec F S2x128 .f32) (main_arg6 : FVec F S2x128 .f32) (main_arg7 : FVec F S2x128 .f32) (main_arg8 : FVec F S128x64 .f32) (main_arg9 : FVec F S64 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S1x64 : Shape := ⟨2, ![1, 64]⟩
abbrev S1x1 : Shape := ⟨2, ![1, 1]⟩
abbrev S100000x1 : Shape := ⟨2, ![100000, 1]⟩
abbrev S5000x1 : Shape := ⟨2, ![5000, 1]⟩
abbrev S5000x64 : Shape := ⟨2, ![5000, 64]⟩

abbrev nBuf : Space → Nat
  | .hbm => 135
  | .vmem => 30
  | .smem => 0
  | _ => 0

abbrev hbmTy0_0 (i : Nat) : BufTy := match i % 128 with
  | 0 => ⟨S100000x128, .f32⟩
  | 1 => ⟨S2x1600000, .i32⟩
  | 2 => ⟨S2x128x128, .f32⟩
  | 3 => ⟨S2x128, .f32⟩
  | 4 => ⟨S2x128, .f32⟩
  | 5 => ⟨S2x128, .f32⟩
  | 6 => ⟨S2x128, .f32⟩
  | 7 => ⟨S2x128, .f32⟩
  | 8 => ⟨S128x64, .f32⟩
  | 9 => ⟨S64, .f32⟩
  | 10 => ⟨S64x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1x128x128, .f32⟩
  | 53 => ⟨S128x128, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S128, .f32⟩
  | 73 => ⟨S_, .f32⟩
  | 74 => ⟨S128, .f32⟩
  | 75 => ⟨S128, .f32⟩
  | 76 => ⟨S128, .f32⟩
  | 77 => ⟨S1x128, .f32⟩
  | 78 => ⟨S128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S128, .f32⟩
  | 87 => ⟨S128, .f32⟩
  | 88 => ⟨S128, .f32⟩
  | 89 => ⟨S1x128, .f32⟩
  | 90 => ⟨S1x128, .f32⟩
  | 91 => ⟨S100000x128, .f32⟩
  | 92 => ⟨S1x128x128, .f32⟩
  | 93 => ⟨S128x128, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S128, .f32⟩
  | 113 => ⟨S_, .f32⟩
  | 114 => ⟨S128, .f32⟩
  | 115 => ⟨S128, .f32⟩
  | 116 => ⟨S128, .f32⟩
  | 117 => ⟨S1x128, .f32⟩
  | 118 => ⟨S128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S128, .f32⟩
  | 1 => ⟨S1x128, .f32⟩
  | 2 => ⟨S1x128, .f32⟩
  | 3 => ⟨S100000x128, .f32⟩
  | 4 => ⟨S1x64, .f32⟩
  | 5 => ⟨S1x1, .f32⟩
  | 6 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S1x64, .f32⟩
  | .local _ .vmem, ⟨26, _⟩ => ⟨S64x1, .f32⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_10 : Ref sig .tc := ⟨.hbm, 95, rfl⟩
abbrev main_v69 : Ref sig .tc := ⟨.hbm, 96, rfl⟩
abbrev main_v70 : Ref sig .tc := ⟨.hbm, 97, rfl⟩
abbrev main_c_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_12 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  shapeCasts_S64_S1x64 : S64.ShapeCasts S1x64
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v99) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v100) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v101) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S2x128x128, .f32⟩
  | 3 => ⟨S2x128, .f32⟩
  | 4 => ⟨S2x128, .f32⟩
  | 5 => ⟨S2x128, .f32⟩
  | 6 => ⟨S2x128, .f32⟩
  | 7 => ⟨S2x128, .f32⟩
  | 8 => ⟨S128x64, .f32⟩
  | 9 => ⟨S64, .f32⟩
  | 10 => ⟨S64x1, .f32⟩
  | 11 => ⟨S1, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1x128x128, .f32⟩
  | 53 => ⟨S128x128, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S1x128x128, .f32⟩
  | 104 => ⟨S128x128, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S100000x128, .f32⟩
  | 4 => ⟨S1x128, .f32⟩
  | 5 => ⟨S128, .f32⟩
  | 6 => ⟨S_, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S128, .f32⟩
  | 15 => ⟨S1x128, .f32⟩
  | 16 => ⟨S100000x128, .f32⟩
  | 17 => ⟨S100000x128, .f32⟩
  | 18 => ⟨S1x128, .f32⟩
  | 19 => ⟨S128, .f32⟩
  | 20 => ⟨S1x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x1, .f32⟩
  | 34 => ⟨S1x1, .f32⟩
  | 35 => ⟨S100000x1, .f32⟩
  | 36 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call1_cst : Ref sig .tc := ⟨.hbm, 100, rfl⟩
abbrev main_call1_v0 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_10 : Ref sig .tc := ⟨.hbm, 106, rfl⟩
abbrev main_v78 : Ref sig .tc := ⟨.hbm, 107, rfl⟩
abbrev main_v79 : Ref sig .tc := ⟨.hbm, 108, rfl⟩
abbrev main_c_11 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_13 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_call2_cst : Ref sig .tc := ⟨.hbm, 151, rfl⟩
abbrev main_call2_v0 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_call3_cst : Ref sig .tc := ⟨.hbm, 158, rfl⟩
abbrev main_call3_v0 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S2x128x128_S1x128x128_0_0_0 : S2x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its RESULT named.  The program is five pipelined regions among stretches of
  host operations; the buffer contents at every boundary are the fold `Gen.W0 … Gen.W12` from the launch memory.
  Every weakly fair execution terminates, the argument arrays end as launched, and the result buffer ends at the
  last boundary's contents `Gen.W12 m ρ c` read at the result's reference.
-/
import proofs.«142205_j80229989089422_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and every
    argument array as launched. -/
theorem run : θ_run defs (onTc (τ := τ) (main (F := F))) ⟨m, fun _ => 0, ρ⟩ (fun r => ∀ c : Dev nD,
      r.2.mem ((c.tc : Thread nD τ).loc main_v104) = W12 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v104 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.ValueRun

end
-- ==== Proof.RefSpec.lean ====
/-
  The reference program's result as a composition of named functions of the argument arrays.

  The graph side, shared by both programs and never opened: `rowT` / `colT` (source and target node of every edge, the
  self-loops appended), `wrapT` (a negative index counted from the end), `degT` (how many edges arrive at a node),
  `dinvT` (its inverse square root where positive, else zero), `normT` (the symmetric edge weight) and `aggT` (every
  node's weighted sum of its neighbours' rows).  The dense side: `wsl0` / `wsl1` and `row0` / `row1` (layer 0's and
  layer 1's slice of a stacked parameter), `refBn` (bias, batch normalisation by running statistics, rectifier, in the
  reference's order of operations), `refHead` (the two-layer head), and `refOut`, the whole map.
-/
import proofs.«142205_j80229989089422_1_alg».proof.Proof.RefRun

noncomputable section

namespace Cert.ReferenceIdeal.Fn

open Cert.ReferenceIdeal Cert.ReferenceIdeal.Gen Idealize.ShloMosaic Idealize.ShloMosaic.TcCoe Idealize.SL.Sem

variable {F : FTy → Type} [FloatOps F]

/-- Source node of every edge, then every node once (its self-loop). -/
def rowT (ei : (⟨S2x1600000, .i32⟩ : BufTy).Contents (Elt F)) : (⟨S1700000, .i32⟩ : BufTy).Contents (Elt F) :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)
/-- Target node of every edge, then every node once. -/
def colT (ei : (⟨S2x1600000, .i32⟩ : BufTy).Contents (Elt F)) : (⟨S1700000, .i32⟩ : BufTy).Contents (Elt F) :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)
/-- A negative node index counts from the end. -/
def wrapT (v : (⟨S1700000, .i32⟩ : BufTy).Contents (Elt F)) : (⟨S1700000, .i32⟩ : BufTy).Contents (Elt F) :=
  (select (cmpi .slt v (broadcastInDim S1700000 ![] bcast_S_S1700000 (constantI S_ 32 0#32))) (addi v (broadcastInDim S1700000 ![] bcast_S_S1700000 (constantI S_ 32 100000#32))) v)
/-- The number of edges arriving at each node. -/
def degT (ei : (⟨S2x1600000, .i32⟩ : BufTy).Contents (Elt F)) : (⟨S100000, .f32⟩ : BufTy).Contents (Elt F) :=
  (Host.scatterAdd scatter_S100000_S1700000x1_S1700000_n_0_0_1 (broadcastInDim S100000 ![] bcast_S_S100000 (constant (F := F) S_ .f32 0x00000000#32)) (broadcastInDim S1700000x1 ![0] bcast_S1700000_S1700000x1_0 (colT ei)) (broadcastInDim S1700000 ![] bcast_S_S1700000 (constant (F := F) S_ .f32 0x3F800000#32)))
/-- Its inverse square root where it is positive, zero elsewhere. -/
def dinvT (ei : (⟨S2x1600000, .i32⟩ : BufTy).Contents (Elt F)) : (⟨S100000, .f32⟩ : BufTy).Contents (Elt F) :=
  (select (cmpf (F := F) .ogt (degT ei) (broadcastInDim S100000 ![] bcast_S_S100000 (constant (F := F) S_ .f32 0x00000000#32))) (Host.rsqrt (degT ei)) (broadcastInDim S100000 ![] bcast_S_S100000 (id (constant (F := F) S_ .f32 0x00000000#32))))
/-- The symmetric normalisation's weight of every edge. -/
def normT (ei : (⟨S2x1600000, .i32⟩ : BufTy).Contents (Elt F)) : (⟨S1700000, .f32⟩ : BufTy).Contents (Elt F) :=
  (mulf (Host.gather gather_S100000_S1700000x1_S1700000_n_0_n_n_0_1_1 (dinvT ei) (broadcastInDim S1700000x1 ![0] bcast_S1700000_S1700000x1_0 (wrapT (rowT ei)))) (Host.gather gather_S100000_S1700000x1_S1700000_n_0_n_n_0_1_1 (dinvT ei) (broadcastInDim S1700000x1 ![0] bcast_S1700000_S1700000x1_0 (wrapT (colT ei)))))
/-- Every node's weighted sum of its in-neighbours' rows of `t`. -/
def aggT (ei : (⟨S2x1600000, .i32⟩ : BufTy).Contents (Elt F)) (t : (⟨S100000x128, .f32⟩ : BufTy).Contents (Elt F)) : (⟨S100000x128, .f32⟩ : BufTy).Contents (Elt F) :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (colT ei)) (mulf (Host.gather gather_S100000x128_S1700000x1_S1700000x128_1_0_n_n_0_1_1128 t (broadcastInDim S1700000x1 ![0] bcast_S1700000_S1700000x1_0 (wrapT (rowT ei)))) (broadcastInDim S1700000x128 ![0, 1] bcast_S1700000x1_S1700000x128_0_1 (broadcastInDim S1700000x1 ![0] bcast_S1700000_S1700000x1_0 (normT ei)))))
/-- Layer 0's row of a stacked per-feature parameter. -/
def row0 (a : (⟨S2x128, .f32⟩ : BufTy).Contents (Elt F)) : (⟨S128, .f32⟩ : BufTy).Contents (Elt F) :=
  shapeCast _ (extractStridedSlice S1x128 ![0, 0] a slices_S2x128_S1x128_0_0) shapeCasts_S1x128_S128
/-- Layer 1's row. -/
def row1 (a : (⟨S2x128, .f32⟩ : BufTy).Contents (Elt F)) : (⟨S128, .f32⟩ : BufTy).Contents (Elt F) :=
  shapeCast _ (extractStridedSlice S1x128 ![1, 0] a slices_S2x128_S1x128_1_0) shapeCasts_S1x128_S128
/-- Layer 0's weight matrix. -/
def wsl0 (a : (⟨S2x128x128, .f32⟩ : BufTy).Contents (Elt F)) : (⟨S128x128, .f32⟩ : BufTy).Contents (Elt F) :=
  shapeCast _ (extractStridedSlice S1x128x128 ![0, 0, 0] a slices_S2x128x128_S1x128x128_0_0_0) shapeCasts_S1x128x128_S128x128
/-- Layer 1's weight matrix. -/
def wsl1 (a : (⟨S2x128x128, .f32⟩ : BufTy).Contents (Elt F)) : (⟨S128x128, .f32⟩ : BufTy).Contents (Elt F) :=
  shapeCast _ (extractStridedSlice S1x128x128 ![1, 0, 0] a slices_S2x128x128_S1x128x128_1_0_0) shapeCasts_S1x128x128_S128x128
/-- Bias, normalisation by the running mean and variance, scale, shift, rectifier: ((s + b − mean) · rsqrt(var + ε)) · γ + β, clipped at 0. -/
def refBn (s : (⟨S100000x128, .f32⟩ : BufTy).Contents (Elt F)) (b mean var g beta : (⟨S128, .f32⟩ : BufTy).Contents (Elt F)) : (⟨S100000x128, .f32⟩ : BufTy).Contents (Elt F) :=
  (maximumf (addf (mulf (mulf (subf (addf s (broadcastInDim S100000x128 ![0, 1] bcast_S1x128_S100000x128_0_1 (broadcastInDim S1x128 ![1] bcast_S128_S1x128_1 b))) (broadcastInDim S100000x128 ![0, 1] bcast_S1x128_S100000x128_0_1 (broadcastInDim S1x128 ![1] bcast_S128_S1x128_1 mean))) (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 beta))) (broadcastInDim S100000x128 ![] bcast_S_S100000x128 (constant S_ .f32 0x00000000#32)))
/-- The head: rectified affine map to 64 units, then an affine map to one. -/
def refHead (h : (⟨S100000x128, .f32⟩ : BufTy).Contents (Elt F)) (a8 : (⟨S128x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S100000x1, .f32⟩ : BufTy).Contents (Elt F) :=
  addf (Host.dotGeneral dot_S100000x64_S64x1_S100000x1_1_0_0_1_n_n none (maximumf (addf (Host.dotGeneral dot_S100000x128_S128x64_S100000x64_1_0_0_1_n_n none h a8) (broadcastInDim S100000x64 ![0, 1] bcast_S1x64_S100000x64_0_1 (broadcastInDim S1x64 ![1] bcast_S64_S1x64_1 a9))) (broadcastInDim S100000x64 ![] bcast_S_S100000x64 (constant S_ .f32 0x00000000#32))) a10) (broadcastInDim S100000x1 ![0, 1] bcast_S1x1_S100000x1_0_1 (broadcastInDim S1x1 ![1] bcast_S1_S1x1_1 a11))
/-- One graph-convolution layer of the reference from the hidden state `h`: the matrix product, the aggregation, `refBn`. -/
def refLayer (ei : (⟨S2x1600000, .i32⟩ : BufTy).Contents (Elt F)) (h : (⟨S100000x128, .f32⟩ : BufTy).Contents (Elt F)) (w : (⟨S128x128, .f32⟩ : BufTy).Contents (Elt F)) (b mean var g beta : (⟨S128, .f32⟩ : BufTy).Contents (Elt F)) : (⟨S100000x128, .f32⟩ : BufTy).Contents (Elt F) :=
  refBn (aggT ei (Host.dotGeneral dot_S100000x128_S128x128_S100000x128_1_0_0_1_n_n none h w)) b mean var g beta
/-- The reference's whole map. -/
def refOut (a0 : (⟨S100000x128, .f32⟩ : BufTy).Contents (Elt F)) (ei : (⟨S2x1600000, .i32⟩ : BufTy).Contents (Elt F)) (a2 : (⟨S2x128x128, .f32⟩ : BufTy).Contents (Elt F)) (a3 a4 a5 a6 a7 : (⟨S2x128, .f32⟩ : BufTy).Contents (Elt F))
    (a8 : (⟨S128x64, .f32⟩ : BufTy).Contents (Elt F)) (a9 : (⟨S64, .f32⟩ : BufTy).Contents (Elt F)) (a10 : (⟨S64x1, .f32⟩ : BufTy).Contents (Elt F)) (a11 : (⟨S1, .f32⟩ : BufTy).Contents (Elt F)) : (⟨S100000x1, .f32⟩ : BufTy).Contents (Elt F) :=
  refHead (refLayer ei (refLayer ei a0 (wsl0 a2) (row0 a3) (row0 a6) (row0 a7) (row0 a4) (row0 a5)) (wsl1 a2) (row1 a3) (row1 a6) (row1 a7) (row1 a4) (row1 a5)) a8 a9 a10 a11

set_option maxRecDepth 8192 in
/-- The generated run's result term is `refOut` of the argument arrays. -/
theorem res_eq (m : (ℓ : Loc nD τ sig) → Buf (Elt F) ℓ) (c : Dev nD) :
    Cert.ReferenceIdeal.ValueP.res_main_v128 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.ValueP.res_main_v128 refOut refHead refLayer refBn aggT normT dinvT degT wrapT rowT colT row0 row1 wsl0 wsl1
  rfl

end Cert.ReferenceIdeal.Fn

end
-- ==== Proof.KernelFn.lean ====
/-
  The host operations both programs share, over the kernel program's own records: source and target node of every
  edge with the self-loops appended, the wrap of a negative index, the in-degree, its inverse square root, the symmetric
  edge weight, the weighted neighbour sum, and the per-layer slices of the stacked parameters.  Each is the reference's
  function of the same name: the two programs print the same operations.
-/
import proofs.«142205_j80229989089422_1_alg».proof.KernelIdeal
import proofs.«142205_j80229989089422_1_alg».proof.Proof.Gen.KernelIdeal
import proofs.«142205_j80229989089422_1_alg».proof.Proof.RefSpec

noncomputable section

namespace Cert.KernelIdeal.Fn

open Cert.KernelIdeal Cert.KernelIdeal.Gen Idealize.ShloMosaic Idealize.ShloMosaic.TcCoe Idealize.SL.Sem

variable {F : FTy → Type} [FloatOps F]

def rowT (ei : (⟨S2x1600000, .i32⟩ : BufTy).Contents (Elt F)) : (⟨S1700000, .i32⟩ : BufTy).Contents (Elt F) :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)
def colT (ei : (⟨S2x1600000, .i32⟩ : BufTy).Contents (Elt F)) : (⟨S1700000, .i32⟩ : BufTy).Contents (Elt F) :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)
def wrapT (v : (⟨S1700000, .i32⟩ : BufTy).Contents (Elt F)) : (⟨S1700000, .i32⟩ : BufTy).Contents (Elt F) :=
  (select (cmpi .slt v (broadcastInDim S1700000 ![] bcast_S_S1700000 (constantI S_ 32 0#32))) (addi v (broadcastInDim S1700000 ![] bcast_S_S1700000 (constantI S_ 32 100000#32))) v)
def degT (ei : (⟨S2x1600000, .i32⟩ : BufTy).Contents (Elt F)) : (⟨S100000, .f32⟩ : BufTy).Contents (Elt F) :=
  (Host.scatterAdd scatter_S100000_S1700000x1_S1700000_n_0_0_1 (broadcastInDim S100000 ![] bcast_S_S100000 (constant (F := F) S_ .f32 0x00000000#32)) (broadcastInDim S1700000x1 ![0] bcast_S1700000_S1700000x1_0 (colT ei)) (broadcastInDim S1700000 ![] bcast_S_S1700000 (constant (F := F) S_ .f32 0x3F800000#32)))
def dinvT (ei : (⟨S2x1600000, .i32⟩ : BufTy).Contents (Elt F)) : (⟨S100000, .f32⟩ : BufTy).Contents (Elt F) :=
  (select (cmpf (F := F) .ogt (degT ei) (broadcastInDim S100000 ![] bcast_S_S100000 (constant (F := F) S_ .f32 0x00000000#32))) (Host.rsqrt (degT ei)) (broadcastInDim S100000 ![] bcast_S_S100000 (id (constant (F := F) S_ .f32 0x00000000#32))))
def normT (ei : (⟨S2x1600000, .i32⟩ : BufTy).Contents (Elt F)) : (⟨S1700000, .f32⟩ : BufTy).Contents (Elt F) :=
  (mulf (Host.gather gather_S100000_S1700000x1_S1700000_n_0_n_n_0_1_1 (dinvT ei) (broadcastInDim S1700000x1 ![0] bcast_S1700000_S1700000x1_0 (wrapT (rowT ei)))) (Host.gather gather_S100000_S1700000x1_S1700000_n_0_n_n_0_1_1 (dinvT ei) (broadcastInDim S1700000x1 ![0] bcast_S1700000_S1700000x1_0 (wrapT (colT ei)))))
def aggT (ei : (⟨S2x1600000, .i32⟩ : BufTy).Contents (Elt F)) (t : (⟨S100000x128, .f32⟩ : BufTy).Contents (Elt F)) : (⟨S100000x128, .f32⟩ : BufTy).Contents (Elt F) :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (colT ei)) (mulf (Host.gather gather_S100000x128_S1700000x1_S1700000x128_1_0_n_n_0_1_1128 t (broadcastInDim S1700000x1 ![0] bcast_S1700000_S1700000x1_0 (wrapT (rowT ei)))) (broadcastInDim S1700000x128 ![0, 1] bcast_S1700000x1_S1700000x128_0_1 (broadcastInDim S1700000x1 ![0] bcast_S1700000_S1700000x1_0 (normT ei)))))
def row0 (a : (⟨S2x128, .f32⟩ : BufTy).Contents (Elt F)) : (⟨S128, .f32⟩ : BufTy).Contents (Elt F) :=
  shapeCast _ (extractStridedSlice S1x128 ![0, 0] a slices_S2x128_S1x128_0_0) shapeCasts_S1x128_S128
def row1 (a : (⟨S2x128, .f32⟩ : BufTy).Contents (Elt F)) : (⟨S128, .f32⟩ : BufTy).Contents (Elt F) :=
  shapeCast _ (extractStridedSlice S1x128 ![1, 0] a slices_S2x128_S1x128_1_0) shapeCasts_S1x128_S128
def wsl0 (a : (⟨S2x128x128, .f32⟩ : BufTy).Contents (Elt F)) : (⟨S128x128, .f32⟩ : BufTy).Contents (Elt F) :=
  shapeCast _ (extractStridedSlice S1x128x128 ![0, 0, 0] a slices_S2x128x128_S1x128x128_0_0_0) shapeCasts_S1x128x128_S128x128
def wsl1 (a : (⟨S2x128x128, .f32⟩ : BufTy).Contents (Elt F)) : (⟨S128x128, .f32⟩ : BufTy).Contents (Elt F) :=
  shapeCast _ (extractStridedSlice S1x128x128 ![1, 0, 0] a slices_S2x128x128_S1x128x128_1_0_0) shapeCasts_S1x128x128_S128x128

/-- The variance row plus ε, inverse square root: the normalisation's factor per feature. -/
def rstd (var : (⟨S128, .f32⟩ : BufTy).Contents (Elt F)) : (⟨S128, .f32⟩ : BufTy).Contents (Elt F) :=
  Host.rsqrt (addf var (broadcastInDim S128 ![] bcast_S_S128 (constant (F := F) S_ .f32 0x3727C5AC#32)))
/-- The folded scale γ · rsqrt(var + ε), as a row. -/
def scaleRow (g var : (⟨S128, .f32⟩ : BufTy).Contents (Elt F)) : (⟨S1x128, .f32⟩ : BufTy).Contents (Elt F) :=
  shapeCast _ (mulf g (rstd var)) shapeCasts_S128_S1x128
/-- The folded shift β + (b − mean) · (γ · rsqrt(var + ε)), as a row. -/
def shiftRow (beta b mean g var : (⟨S128, .f32⟩ : BufTy).Contents (Elt F)) : (⟨S1x128, .f32⟩ : BufTy).Contents (Elt F) :=
  shapeCast _ (addf beta (mulf (subf b mean) (mulf g (rstd var)))) shapeCasts_S128_S1x128

theorem rowT_eq (ei : (⟨S2x1600000, .i32⟩ : BufTy).Contents (Elt F)) : rowT (F := F) ei = Cert.ReferenceIdeal.Fn.rowT (F := F) ei := rfl
theorem colT_eq (ei : (⟨S2x1600000, .i32⟩ : BufTy).Contents (Elt F)) : colT (F := F) ei = Cert.ReferenceIdeal.Fn.colT (F := F) ei := rfl
theorem wrapT_eq (v : (⟨S1700000, .i32⟩ : BufTy).Contents (Elt F)) : wrapT (F := F) v = Cert.ReferenceIdeal.Fn.wrapT (F := F) v := rfl
theorem degT_eq (ei : (⟨S2x1600000, .i32⟩ : BufTy).Contents (Elt F)) : degT (F := F) ei = Cert.ReferenceIdeal.Fn.degT ei := by
  unfold degT Cert.ReferenceIdeal.Fn.degT; rw [colT_eq]
  all_goals rfl
theorem dinvT_eq (ei : (⟨S2x1600000, .i32⟩ : BufTy).Contents (Elt F)) : dinvT (F := F) ei = Cert.ReferenceIdeal.Fn.dinvT ei := by
  unfold dinvT Cert.ReferenceIdeal.Fn.dinvT; rw [degT_eq]
  all_goals rfl
theorem normT_eq (ei : (⟨S2x1600000, .i32⟩ : BufTy).Contents (Elt F)) : normT (F := F) ei = Cert.ReferenceIdeal.Fn.normT ei := by
  unfold normT Cert.ReferenceIdeal.Fn.normT; rw [dinvT_eq, rowT_eq, colT_eq, wrapT_eq, wrapT_eq]
  all_goals rfl
theorem aggT_eq (ei : (⟨S2x1600000, .i32⟩ : BufTy).Contents (Elt F)) (t : (⟨S100000x128, .f32⟩ : BufTy).Contents (Elt F)) : aggT (F := F) ei t = Cert.ReferenceIdeal.Fn.aggT ei t := by
  unfold aggT Cert.ReferenceIdeal.Fn.aggT; rw [normT_eq, rowT_eq, colT_eq, wrapT_eq]
  all_goals rfl
theorem row0_eq (a : (⟨S2x128, .f32⟩ : BufTy).Contents (Elt F)) : row0 (F := F) a = Cert.ReferenceIdeal.Fn.row0 a := rfl
theorem row1_eq (a : (⟨S2x128, .f32⟩ : BufTy).Contents (Elt F)) : row1 (F := F) a = Cert.ReferenceIdeal.Fn.row1 a := rfl
theorem wsl0_eq (a : (⟨S2x128x128, .f32⟩ : BufTy).Contents (Elt F)) : wsl0 (F := F) a = Cert.ReferenceIdeal.Fn.wsl0 a := rfl
theorem wsl1_eq (a : (⟨S2x128x128, .f32⟩ : BufTy).Contents (Elt F)) : wsl1 (F := F) a = Cert.ReferenceIdeal.Fn.wsl1 a := rfl

end Cert.KernelIdeal.Fn

end
-- ==== Proof.KernelHost.lean ====
/-
  What the kernel program's buffers hold at the boundaries between its host stretches and its regions, as functions of
  the launch memory: the shared graph values (edge endpoints, edge weights), each region's operand arrays, carried across
  the stretches and regions that do not write them.
-/
import proofs.«142205_j80229989089422_1_alg».proof.Proof.Gen.KernelIdeal.Frame
import proofs.«142205_j80229989089422_1_alg».proof.Proof.KernelFn
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The first boundary (region 0's entry) -/

theorem b3_x : W3 m ρ c (Proc.devRef .tc main_arg0) = m ((c.tc : Thread nD τ).loc main_arg0) := by
  show after hostOps0_2 (after hostOps0_1 (after hostOps0 (W0 m ρ c))) (Proc.devRef .tc main_arg0) = _
  simp only [hostOps0_2, hostOps0_1, hostOps0]
  after_results_simp <;> rfl

theorem b3_ei : W3 m ρ c (Proc.devRef .tc main_arg1) = m ((c.tc : Thread nD τ).loc main_arg1) := by
  show after hostOps0_2 (after hostOps0_1 (after hostOps0 (W0 m ρ c))) (Proc.devRef .tc main_arg1) = _
  simp only [hostOps0_2, hostOps0_1, hostOps0]
  after_results_simp <;> rfl

theorem b3_w : W3 m ρ c (Proc.devRef .tc main_v31) = Fn.wsl0 (m ((c.tc : Thread nD τ).loc main_arg2)) := by
  show after hostOps0_2 (after hostOps0_1 (after hostOps0 (W0 m ρ c))) (Proc.devRef .tc main_v31) = _
  simp only [hostOps0_2, hostOps0_1, hostOps0]
  after_results_simp <;> rfl

theorem b3_row : W3 m ρ c (Proc.devRef .tc main_v3) = Fn.rowT (F := F) (m ((c.tc : Thread nD τ).loc main_arg1)) := by
  show after hostOps0_2 (after hostOps0_1 (after hostOps0 (W0 m ρ c))) (Proc.devRef .tc main_v3) = _
  simp only [hostOps0_2, hostOps0_1, hostOps0]
  after_results_simp <;> rfl

theorem b3_col : W3 m ρ c (Proc.devRef .tc main_v6) = Fn.colT (F := F) (m ((c.tc : Thread nD τ).loc main_arg1)) := by
  show after hostOps0_2 (after hostOps0_1 (after hostOps0 (W0 m ρ c))) (Proc.devRef .tc main_v6) = _
  simp only [hostOps0_2, hostOps0_1, hostOps0]
  after_results_simp <;> rfl

theorem b3_norm : W3 m ρ c (Proc.devRef .tc main_v29) = Fn.normT (m ((c.tc : Thread nD τ).loc main_arg1)) := by
  show after hostOps0_2 (after hostOps0_1 (after hostOps0 (W0 m ρ c))) (Proc.devRef .tc main_v29) = _
  simp only [hostOps0_2, hostOps0_1, hostOps0]
  after_results_simp <;> rfl

/-! ## Buffers no stretch or region in between writes keep their contents -/

theorem at3_main_v3 : W3 m ρ c (Proc.devRef .tc main_v3) = Fn.rowT (F := F) (m ((c.tc : Thread nD τ).loc main_arg1)) := b3_row m ρ c
theorem at4_main_v3 : W4 m ρ c (Proc.devRef .tc main_v3) = Fn.rowT (F := F) (m ((c.tc : Thread nD τ).loc main_arg1)) := (W4_of_ne m ρ c main_v3 (by decide)).trans (at3_main_v3 m ρ c)
theorem at5_main_v3 : W5 m ρ c (Proc.devRef .tc main_v3) = Fn.rowT (F := F) (m ((c.tc : Thread nD τ).loc main_arg1)) := by
  show after hostOps1 (W4 m ρ c) (Proc.devRef .tc main_v3) = _
  simp only [hostOps1]
  after_results_simp
  exact at4_main_v3 m ρ c
theorem at6_main_v3 : W6 m ρ c (Proc.devRef .tc main_v3) = Fn.rowT (F := F) (m ((c.tc : Thread nD τ).loc main_arg1)) := (W6_of_ne m ρ c main_v3 (by decide)).trans (at5_main_v3 m ρ c)
theorem at7_main_v3 : W7 m ρ c (Proc.devRef .tc main_v3) = Fn.rowT (F := F) (m ((c.tc : Thread nD τ).loc main_arg1)) := by
  show after hostOps2 (W6 m ρ c) (Proc.devRef .tc main_v3) = _
  simp only [hostOps2]
  after_results_simp
  exact at6_main_v3 m ρ c
theorem at8_main_v3 : W8 m ρ c (Proc.devRef .tc main_v3) = Fn.rowT (F := F) (m ((c.tc : Thread nD τ).loc main_arg1)) := (W8_of_ne m ρ c main_v3 (by decide)).trans (at7_main_v3 m ρ c)

theorem at3_main_v6 : W3 m ρ c (Proc.devRef .tc main_v6) = Fn.colT (F := F) (m ((c.tc : Thread nD τ).loc main_arg1)) := b3_col m ρ c
theorem at4_main_v6 : W4 m ρ c (Proc.devRef .tc main_v6) = Fn.colT (F := F) (m ((c.tc : Thread nD τ).loc main_arg1)) := (W4_of_ne m ρ c main_v6 (by decide)).trans (at3_main_v6 m ρ c)
theorem at5_main_v6 : W5 m ρ c (Proc.devRef .tc main_v6) = Fn.colT (F := F) (m ((c.tc : Thread nD τ).loc main_arg1)) := by
  show after hostOps1 (W4 m ρ c) (Proc.devRef .tc main_v6) = _
  simp only [hostOps1]
  after_results_simp
  exact at4_main_v6 m ρ c
theorem at6_main_v6 : W6 m ρ c (Proc.devRef .tc main_v6) = Fn.colT (F := F) (m ((c.tc : Thread nD τ).loc main_arg1)) := (W6_of_ne m ρ c main_v6 (by decide)).trans (at5_main_v6 m ρ c)
theorem at7_main_v6 : W7 m ρ c (Proc.devRef .tc main_v6) = Fn.colT (F := F) (m ((c.tc : Thread nD τ).loc main_arg1)) := by
  show after hostOps2 (W6 m ρ c) (Proc.devRef .tc main_v6) = _
  simp only [hostOps2]
  after_results_simp
  exact at6_main_v6 m ρ c
theorem at8_main_v6 : W8 m ρ c (Proc.devRef .tc main_v6) = Fn.colT (F := F) (m ((c.tc : Thread nD τ).loc main_arg1)) := (W8_of_ne m ρ c main_v6 (by decide)).trans (at7_main_v6 m ρ c)

theorem at3_main_v29 : W3 m ρ c (Proc.devRef .tc main_v29) = Fn.normT (m ((c.tc : Thread nD τ).loc main_arg1)) := b3_norm m ρ c
theorem at4_main_v29 : W4 m ρ c (Proc.devRef .tc main_v29) = Fn.normT (m ((c.tc : Thread nD τ).loc main_arg1)) := (W4_of_ne m ρ c main_v29 (by decide)).trans (at3_main_v29 m ρ c)
theorem at5_main_v29 : W5 m ρ c (Proc.devRef .tc main_v29) = Fn.normT (m ((c.tc : Thread nD τ).loc main_arg1)) := by
  show after hostOps1 (W4 m ρ c) (Proc.devRef .tc main_v29) = _
  simp only [hostOps1]
  after_results_simp
  exact at4_main_v29 m ρ c
theorem at6_main_v29 : W6 m ρ c (Proc.devRef .tc main_v29) = Fn.normT (m ((c.tc : Thread nD τ).loc main_arg1)) := (W6_of_ne m ρ c main_v29 (by decide)).trans (at5_main_v29 m ρ c)
theorem at7_main_v29 : W7 m ρ c (Proc.devRef .tc main_v29) = Fn.normT (m ((c.tc : Thread nD τ).loc main_arg1)) := by
  show after hostOps2 (W6 m ρ c) (Proc.devRef .tc main_v29) = _
  simp only [hostOps2]
  after_results_simp
  exact at6_main_v29 m ρ c
theorem at8_main_v29 : W8 m ρ c (Proc.devRef .tc main_v29) = Fn.normT (m ((c.tc : Thread nD τ).loc main_arg1)) := (W8_of_ne m ρ c main_v29 (by decide)).trans (at7_main_v29 m ρ c)

theorem at3_main_arg2 : W3 m ρ c (Proc.devRef .tc main_arg2) = m ((c.tc : Thread nD τ).loc main_arg2) := by
  show after hostOps0_2 (after hostOps0_1 (after hostOps0 (W0 m ρ c))) (Proc.devRef .tc main_arg2) = _
  simp only [hostOps0_2, hostOps0_1, hostOps0]
  after_results_simp <;> rfl
theorem at4_main_arg2 : W4 m ρ c (Proc.devRef .tc main_arg2) = m ((c.tc : Thread nD τ).loc main_arg2) := (W4_of_ne m ρ c main_arg2 (by decide)).trans (at3_main_arg2 m ρ c)
theorem at5_main_arg2 : W5 m ρ c (Proc.devRef .tc main_arg2) = m ((c.tc : Thread nD τ).loc main_arg2) := by
  show after hostOps1 (W4 m ρ c) (Proc.devRef .tc main_arg2) = _
  simp only [hostOps1]
  after_results_simp
  exact at4_main_arg2 m ρ c
theorem at6_main_arg2 : W6 m ρ c (Proc.devRef .tc main_arg2) = m ((c.tc : Thread nD τ).loc main_arg2) := (W6_of_ne m ρ c main_arg2 (by decide)).trans (at5_main_arg2 m ρ c)

theorem at3_main_arg3 : W3 m ρ c (Proc.devRef .tc main_arg3) = m ((c.tc : Thread nD τ).loc main_arg3) := by
  show after hostOps0_2 (after hostOps0_1 (after hostOps0 (W0 m ρ c))) (Proc.devRef .tc main_arg3) = _
  simp only [hostOps0_2, hostOps0_1, hostOps0]
  after_results_simp <;> rfl
theorem at4_main_arg3 : W4 m ρ c (Proc.devRef .tc main_arg3) = m ((c.tc : Thread nD τ).loc main_arg3) := (W4_of_ne m ρ c main_arg3 (by decide)).trans (at3_main_arg3 m ρ c)
theorem at5_main_arg3 : W5 m ρ c (Proc.devRef .tc main_arg3) = m ((c.tc : Thread nD τ).loc main_arg3) := by
  show after hostOps1 (W4 m ρ c) (Proc.devRef .tc main_arg3) = _
  simp only [hostOps1]
  after_results_simp
  exact at4_main_arg3 m ρ c
theorem at6_main_arg3 : W6 m ρ c (Proc.devRef .tc main_arg3) = m ((c.tc : Thread nD τ).loc main_arg3) := (W6_of_ne m ρ c main_arg3 (by decide)).trans (at5_main_arg3 m ρ c)
theorem at7_main_arg3 : W7 m ρ c (Proc.devRef .tc main_arg3) = m ((c.tc : Thread nD τ).loc main_arg3) := by
  show after hostOps2 (W6 m ρ c) (Proc.devRef .tc main_arg3) = _
  simp only [hostOps2]
  after_results_simp
  exact at6_main_arg3 m ρ c
theorem at8_main_arg3 : W8 m ρ c (Proc.devRef .tc main_arg3) = m ((c.tc : Thread nD τ).loc main_arg3) := (W8_of_ne m ρ c main_arg3 (by decide)).trans (at7_main_arg3 m ρ c)

theorem at3_main_arg4 : W3 m ρ c (Proc.devRef .tc main_arg4) = m ((c.tc : Thread nD τ).loc main_arg4) := by
  show after hostOps0_2 (after hostOps0_1 (after hostOps0 (W0 m ρ c))) (Proc.devRef .tc main_arg4) = _
  simp only [hostOps0_2, hostOps0_1, hostOps0]
  after_results_simp <;> rfl
theorem at4_main_arg4 : W4 m ρ c (Proc.devRef .tc main_arg4) = m ((c.tc : Thread nD τ).loc main_arg4) := (W4_of_ne m ρ c main_arg4 (by decide)).trans (at3_main_arg4 m ρ c)
theorem at5_main_arg4 : W5 m ρ c (Proc.devRef .tc main_arg4) = m ((c.tc : Thread nD τ).loc main_arg4) := by
  show after hostOps1 (W4 m ρ c) (Proc.devRef .tc main_arg4) = _
  simp only [hostOps1]
  after_results_simp
  exact at4_main_arg4 m ρ c
theorem at6_main_arg4 : W6 m ρ c (Proc.devRef .tc main_arg4) = m ((c.tc : Thread nD τ).loc main_arg4) := (W6_of_ne m ρ c main_arg4 (by decide)).trans (at5_main_arg4 m ρ c)
theorem at7_main_arg4 : W7 m ρ c (Proc.devRef .tc main_arg4) = m ((c.tc : Thread nD τ).loc main_arg4) := by
  show after hostOps2 (W6 m ρ c) (Proc.devRef .tc main_arg4) = _
  simp only [hostOps2]
  after_results_simp
  exact at6_main_arg4 m ρ c
theorem at8_main_arg4 : W8 m ρ c (Proc.devRef .tc main_arg4) = m ((c.tc : Thread nD τ).loc main_arg4) := (W8_of_ne m ρ c main_arg4 (by decide)).trans (at7_main_arg4 m ρ c)

theorem at3_main_arg5 : W3 m ρ c (Proc.devRef .tc main_arg5) = m ((c.tc : Thread nD τ).loc main_arg5) := by
  show after hostOps0_2 (after hostOps0_1 (after hostOps0 (W0 m ρ c))) (Proc.devRef .tc main_arg5) = _
  simp only [hostOps0_2, hostOps0_1, hostOps0]
  after_results_simp <;> rfl
theorem at4_main_arg5 : W4 m ρ c (Proc.devRef .tc main_arg5) = m ((c.tc : Thread nD τ).loc main_arg5) := (W4_of_ne m ρ c main_arg5 (by decide)).trans (at3_main_arg5 m ρ c)
theorem at5_main_arg5 : W5 m ρ c (Proc.devRef .tc main_arg5) = m ((c.tc : Thread nD τ).loc main_arg5) := by
  show after hostOps1 (W4 m ρ c) (Proc.devRef .tc main_arg5) = _
  simp only [hostOps1]
  after_results_simp
  exact at4_main_arg5 m ρ c
theorem at6_main_arg5 : W6 m ρ c (Proc.devRef .tc main_arg5) = m ((c.tc : Thread nD τ).loc main_arg5) := (W6_of_ne m ρ c main_arg5 (by decide)).trans (at5_main_arg5 m ρ c)
theorem at7_main_arg5 : W7 m ρ c (Proc.devRef .tc main_arg5) = m ((c.tc : Thread nD τ).loc main_arg5) := by
  show after hostOps2 (W6 m ρ c) (Proc.devRef .tc main_arg5) = _
  simp only [hostOps2]
  after_results_simp
  exact at6_main_arg5 m ρ c
theorem at8_main_arg5 : W8 m ρ c (Proc.devRef .tc main_arg5) = m ((c.tc : Thread nD τ).loc main_arg5) := (W8_of_ne m ρ c main_arg5 (by decide)).trans (at7_main_arg5 m ρ c)

theorem at3_main_arg6 : W3 m ρ c (Proc.devRef .tc main_arg6) = m ((c.tc : Thread nD τ).loc main_arg6) := by
  show after hostOps0_2 (after hostOps0_1 (after hostOps0 (W0 m ρ c))) (Proc.devRef .tc main_arg6) = _
  simp only [hostOps0_2, hostOps0_1, hostOps0]
  after_results_simp <;> rfl
theorem at4_main_arg6 : W4 m ρ c (Proc.devRef .tc main_arg6) = m ((c.tc : Thread nD τ).loc main_arg6) := (W4_of_ne m ρ c main_arg6 (by decide)).trans (at3_main_arg6 m ρ c)
theorem at5_main_arg6 : W5 m ρ c (Proc.devRef .tc main_arg6) = m ((c.tc : Thread nD τ).loc main_arg6) := by
  show after hostOps1 (W4 m ρ c) (Proc.devRef .tc main_arg6) = _
  simp only [hostOps1]
  after_results_simp
  exact at4_main_arg6 m ρ c
theorem at6_main_arg6 : W6 m ρ c (Proc.devRef .tc main_arg6) = m ((c.tc : Thread nD τ).loc main_arg6) := (W6_of_ne m ρ c main_arg6 (by decide)).trans (at5_main_arg6 m ρ c)
theorem at7_main_arg6 : W7 m ρ c (Proc.devRef .tc main_arg6) = m ((c.tc : Thread nD τ).loc main_arg6) := by
  show after hostOps2 (W6 m ρ c) (Proc.devRef .tc main_arg6) = _
  simp only [hostOps2]
  after_results_simp
  exact at6_main_arg6 m ρ c
theorem at8_main_arg6 : W8 m ρ c (Proc.devRef .tc main_arg6) = m ((c.tc : Thread nD τ).loc main_arg6) := (W8_of_ne m ρ c main_arg6 (by decide)).trans (at7_main_arg6 m ρ c)

theorem at3_main_arg7 : W3 m ρ c (Proc.devRef .tc main_arg7) = m ((c.tc : Thread nD τ).loc main_arg7) := by
  show after hostOps0_2 (after hostOps0_1 (after hostOps0 (W0 m ρ c))) (Proc.devRef .tc main_arg7) = _
  simp only [hostOps0_2, hostOps0_1, hostOps0]
  after_results_simp <;> rfl
theorem at4_main_arg7 : W4 m ρ c (Proc.devRef .tc main_arg7) = m ((c.tc : Thread nD τ).loc main_arg7) := (W4_of_ne m ρ c main_arg7 (by decide)).trans (at3_main_arg7 m ρ c)
theorem at5_main_arg7 : W5 m ρ c (Proc.devRef .tc main_arg7) = m ((c.tc : Thread nD τ).loc main_arg7) := by
  show after hostOps1 (W4 m ρ c) (Proc.devRef .tc main_arg7) = _
  simp only [hostOps1]
  after_results_simp
  exact at4_main_arg7 m ρ c
theorem at6_main_arg7 : W6 m ρ c (Proc.devRef .tc main_arg7) = m ((c.tc : Thread nD τ).loc main_arg7) := (W6_of_ne m ρ c main_arg7 (by decide)).trans (at5_main_arg7 m ρ c)
theorem at7_main_arg7 : W7 m ρ c (Proc.devRef .tc main_arg7) = m ((c.tc : Thread nD τ).loc main_arg7) := by
  show after hostOps2 (W6 m ρ c) (Proc.devRef .tc main_arg7) = _
  simp only [hostOps2]
  after_results_simp
  exact at6_main_arg7 m ρ c
theorem at8_main_arg7 : W8 m ρ c (Proc.devRef .tc main_arg7) = m ((c.tc : Thread nD τ).loc main_arg7) := (W8_of_ne m ρ c main_arg7 (by decide)).trans (at7_main_arg7 m ρ c)

theorem at3_main_arg8 : W3 m ρ c (Proc.devRef .tc main_arg8) = m ((c.tc : Thread nD τ).loc main_arg8) := by
  show after hostOps0_2 (after hostOps0_1 (after hostOps0 (W0 m ρ c))) (Proc.devRef .tc main_arg8) = _
  simp only [hostOps0_2, hostOps0_1, hostOps0]
  after_results_simp <;> rfl
theorem at4_main_arg8 : W4 m ρ c (Proc.devRef .tc main_arg8) = m ((c.tc : Thread nD τ).loc main_arg8) := (W4_of_ne m ρ c main_arg8 (by decide)).trans (at3_main_arg8 m ρ c)
theorem at5_main_arg8 : W5 m ρ c (Proc.devRef .tc main_arg8) = m ((c.tc : Thread nD τ).loc main_arg8) := by
  show after hostOps1 (W4 m ρ c) (Proc.devRef .tc main_arg8) = _
  simp only [hostOps1]
  after_results_simp
  exact at4_main_arg8 m ρ c
theorem at6_main_arg8 : W6 m ρ c (Proc.devRef .tc main_arg8) = m ((c.tc : Thread nD τ).loc main_arg8) := (W6_of_ne m ρ c main_arg8 (by decide)).trans (at5_main_arg8 m ρ c)
theorem at7_main_arg8 : W7 m ρ c (Proc.devRef .tc main_arg8) = m ((c.tc : Thread nD τ).loc main_arg8) := by
  show after hostOps2 (W6 m ρ c) (Proc.devRef .tc main_arg8) = _
  simp only [hostOps2]
  after_results_simp
  exact at6_main_arg8 m ρ c
theorem at8_main_arg8 : W8 m ρ c (Proc.devRef .tc main_arg8) = m ((c.tc : Thread nD τ).loc main_arg8) := (W8_of_ne m ρ c main_arg8 (by decide)).trans (at7_main_arg8 m ρ c)
theorem at9_main_arg8 : W9 m ρ c (Proc.devRef .tc main_arg8) = m ((c.tc : Thread nD τ).loc main_arg8) := by
  show after hostOps3 (W8 m ρ c) (Proc.devRef .tc main_arg8) = _
  simp only [hostOps3]
  after_results_simp
  exact at8_main_arg8 m ρ c
theorem at10_main_arg8 : W10 m ρ c (Proc.devRef .tc main_arg8) = m ((c.tc : Thread nD τ).loc main_arg8) := (W10_of_ne m ρ c main_arg8 (by decide)).trans (at9_main_arg8 m ρ c)
theorem at11_main_arg8 : W11 m ρ c (Proc.devRef .tc main_arg8) = m ((c.tc : Thread nD τ).loc main_arg8) := by
  show after hostOps4 (W10 m ρ c) (Proc.devRef .tc main_arg8) = _
  simp only [hostOps4]
  after_results_simp
  exact at10_main_arg8 m ρ c

theorem at3_main_arg10 : W3 m ρ c (Proc.devRef .tc main_arg10) = m ((c.tc : Thread nD τ).loc main_arg10) := by
  show after hostOps0_2 (after hostOps0_1 (after hostOps0 (W0 m ρ c))) (Proc.devRef .tc main_arg10) = _
  simp only [hostOps0_2, hostOps0_1, hostOps0]
  after_results_simp <;> rfl
theorem at4_main_arg10 : W4 m ρ c (Proc.devRef .tc main_arg10) = m ((c.tc : Thread nD τ).loc main_arg10) := (W4_of_ne m ρ c main_arg10 (by decide)).trans (at3_main_arg10 m ρ c)
theorem at5_main_arg10 : W5 m ρ c (Proc.devRef .tc main_arg10) = m ((c.tc : Thread nD τ).loc main_arg10) := by
  show after hostOps1 (W4 m ρ c) (Proc.devRef .tc main_arg10) = _
  simp only [hostOps1]
  after_results_simp
  exact at4_main_arg10 m ρ c
theorem at6_main_arg10 : W6 m ρ c (Proc.devRef .tc main_arg10) = m ((c.tc : Thread nD τ).loc main_arg10) := (W6_of_ne m ρ c main_arg10 (by decide)).trans (at5_main_arg10 m ρ c)
theorem at7_main_arg10 : W7 m ρ c (Proc.devRef .tc main_arg10) = m ((c.tc : Thread nD τ).loc main_arg10) := by
  show after hostOps2 (W6 m ρ c) (Proc.devRef .tc main_arg10) = _
  simp only [hostOps2]
  after_results_simp
  exact at6_main_arg10 m ρ c
theorem at8_main_arg10 : W8 m ρ c (Proc.devRef .tc main_arg10) = m ((c.tc : Thread nD τ).loc main_arg10) := (W8_of_ne m ρ c main_arg10 (by decide)).trans (at7_main_arg10 m ρ c)
theorem at9_main_arg10 : W9 m ρ c (Proc.devRef .tc main_arg10) = m ((c.tc : Thread nD τ).loc main_arg10) := by
  show after hostOps3 (W8 m ρ c) (Proc.devRef .tc main_arg10) = _
  simp only [hostOps3]
  after_results_simp
  exact at8_main_arg10 m ρ c
theorem at10_main_arg10 : W10 m ρ c (Proc.devRef .tc main_arg10) = m ((c.tc : Thread nD τ).loc main_arg10) := (W10_of_ne m ρ c main_arg10 (by decide)).trans (at9_main_arg10 m ρ c)
theorem at11_main_arg10 : W11 m ρ c (Proc.devRef .tc main_arg10) = m ((c.tc : Thread nD τ).loc main_arg10) := by
  show after hostOps4 (W10 m ρ c) (Proc.devRef .tc main_arg10) = _
  simp only [hostOps4]
  after_results_simp
  exact at10_main_arg10 m ρ c

theorem at3_main_arg9 : W3 m ρ c (Proc.devRef .tc main_arg9) = m ((c.tc : Thread nD τ).loc main_arg9) := by
  show after hostOps0_2 (after hostOps0_1 (after hostOps0 (W0 m ρ c))) (Proc.devRef .tc main_arg9) = _
  simp only [hostOps0_2, hostOps0_1, hostOps0]
  after_results_simp <;> rfl
theorem at4_main_arg9 : W4 m ρ c (Proc.devRef .tc main_arg9) = m ((c.tc : Thread nD τ).loc main_arg9) := (W4_of_ne m ρ c main_arg9 (by decide)).trans (at3_main_arg9 m ρ c)
theorem at5_main_arg9 : W5 m ρ c (Proc.devRef .tc main_arg9) = m ((c.tc : Thread nD τ).loc main_arg9) := by
  show after hostOps1 (W4 m ρ c) (Proc.devRef .tc main_arg9) = _
  simp only [hostOps1]
  after_results_simp
  exact at4_main_arg9 m ρ c
theorem at6_main_arg9 : W6 m ρ c (Proc.devRef .tc main_arg9) = m ((c.tc : Thread nD τ).loc main_arg9) := (W6_of_ne m ρ c main_arg9 (by decide)).trans (at5_main_arg9 m ρ c)
theorem at7_main_arg9 : W7 m ρ c (Proc.devRef .tc main_arg9) = m ((c.tc : Thread nD τ).loc main_arg9) := by
  show after hostOps2 (W6 m ρ c) (Proc.devRef .tc main_arg9) = _
  simp only [hostOps2]
  after_results_simp
  exact at6_main_arg9 m ρ c
theorem at8_main_arg9 : W8 m ρ c (Proc.devRef .tc main_arg9) = m ((c.tc : Thread nD τ).loc main_arg9) := (W8_of_ne m ρ c main_arg9 (by decide)).trans (at7_main_arg9 m ρ c)
theorem at9_main_arg9 : W9 m ρ c (Proc.devRef .tc main_arg9) = m ((c.tc : Thread nD τ).loc main_arg9) := by
  show after hostOps3 (W8 m ρ c) (Proc.devRef .tc main_arg9) = _
  simp only [hostOps3]
  after_results_simp
  exact at8_main_arg9 m ρ c
theorem at10_main_arg9 : W10 m ρ c (Proc.devRef .tc main_arg9) = m ((c.tc : Thread nD τ).loc main_arg9) := (W10_of_ne m ρ c main_arg9 (by decide)).trans (at9_main_arg9 m ρ c)

theorem at3_main_arg11 : W3 m ρ c (Proc.devRef .tc main_arg11) = m ((c.tc : Thread nD τ).loc main_arg11) := by
  show after hostOps0_2 (after hostOps0_1 (after hostOps0 (W0 m ρ c))) (Proc.devRef .tc main_arg11) = _
  simp only [hostOps0_2, hostOps0_1, hostOps0]
  after_results_simp <;> rfl
theorem at4_main_arg11 : W4 m ρ c (Proc.devRef .tc main_arg11) = m ((c.tc : Thread nD τ).loc main_arg11) := (W4_of_ne m ρ c main_arg11 (by decide)).trans (at3_main_arg11 m ρ c)
theorem at5_main_arg11 : W5 m ρ c (Proc.devRef .tc main_arg11) = m ((c.tc : Thread nD τ).loc main_arg11) := by
  show after hostOps1 (W4 m ρ c) (Proc.devRef .tc main_arg11) = _
  simp only [hostOps1]
  after_results_simp
  exact at4_main_arg11 m ρ c
theorem at6_main_arg11 : W6 m ρ c (Proc.devRef .tc main_arg11) = m ((c.tc : Thread nD τ).loc main_arg11) := (W6_of_ne m ρ c main_arg11 (by decide)).trans (at5_main_arg11 m ρ c)
theorem at7_main_arg11 : W7 m ρ c (Proc.devRef .tc main_arg11) = m ((c.tc : Thread nD τ).loc main_arg11) := by
  show after hostOps2 (W6 m ρ c) (Proc.devRef .tc main_arg11) = _
  simp only [hostOps2]
  after_results_simp
  exact at6_main_arg11 m ρ c
theorem at8_main_arg11 : W8 m ρ c (Proc.devRef .tc main_arg11) = m ((c.tc : Thread nD τ).loc main_arg11) := (W8_of_ne m ρ c main_arg11 (by decide)).trans (at7_main_arg11 m ρ c)
theorem at9_main_arg11 : W9 m ρ c (Proc.devRef .tc main_arg11) = m ((c.tc : Thread nD τ).loc main_arg11) := by
  show after hostOps3 (W8 m ρ c) (Proc.devRef .tc main_arg11) = _
  simp only [hostOps3]
  after_results_simp
  exact at8_main_arg11 m ρ c
theorem at10_main_arg11 : W10 m ρ c (Proc.devRef .tc main_arg11) = m ((c.tc : Thread nD τ).loc main_arg11) := (W10_of_ne m ρ c main_arg11 (by decide)).trans (at9_main_arg11 m ρ c)

/-! ## Layer 0: the stretch between its two regions -/

/-- The aggregated messages: every node's weighted sum of its in-neighbours' rows of the product the region before left. -/
theorem s5_h : W5 m ρ c (Proc.devRef .tc main_v45) = Fn.aggT (m ((c.tc : Thread nD τ).loc main_arg1)) (W4 m ρ c (Proc.devRef .tc main_v32)) := by
  show after hostOps1 (W4 m ρ c) (Proc.devRef .tc main_v45) = _
  simp only [hostOps1]
  after_results_simp
  rw [at4_main_v3 m ρ c, at4_main_v6 m ρ c, at4_main_v29 m ρ c]
  rfl

/-- The folded scale row. -/
theorem s5_sc : W5 m ρ c (Proc.devRef .tc main_v63) = Fn.scaleRow (Fn.row0 (m ((c.tc : Thread nD τ).loc main_arg4))) (Fn.row0 (m ((c.tc : Thread nD τ).loc main_arg7))) := by
  show after hostOps1 (W4 m ρ c) (Proc.devRef .tc main_v63) = _
  simp only [hostOps1]
  after_results_simp
  rw [at4_main_arg4 m ρ c, at4_main_arg7 m ρ c]
  rfl

/-- The folded shift row. -/
theorem s5_sh : W5 m ρ c (Proc.devRef .tc main_v64) = Fn.shiftRow (Fn.row0 (m ((c.tc : Thread nD τ).loc main_arg5))) (Fn.row0 (m ((c.tc : Thread nD τ).loc main_arg3))) (Fn.row0 (m ((c.tc : Thread nD τ).loc main_arg6))) (Fn.row0 (m ((c.tc : Thread nD τ).loc main_arg4))) (Fn.row0 (m ((c.tc : Thread nD τ).loc main_arg7))) := by
  show after hostOps1 (W4 m ρ c) (Proc.devRef .tc main_v64) = _
  simp only [hostOps1]
  after_results_simp
  rw [at4_main_arg3 m ρ c, at4_main_arg4 m ρ c, at4_main_arg5 m ρ c, at4_main_arg6 m ρ c, at4_main_arg7 m ρ c]
  rfl

/-! ## Between region 1 and region 2 -/

theorem s7_h : W7 m ρ c (Proc.devRef .tc main_v65) = W6 m ρ c (Proc.devRef .tc main_v65) := by
  show after hostOps2 (W6 m ρ c) (Proc.devRef .tc main_v65) = _
  simp only [hostOps2]
  after_results_simp

theorem s7_w : W7 m ρ c (Proc.devRef .tc main_v67) = Fn.wsl1 (m ((c.tc : Thread nD τ).loc main_arg2)) := by
  show after hostOps2 (W6 m ρ c) (Proc.devRef .tc main_v67) = _
  simp only [hostOps2]
  after_results_simp
  rw [at6_main_arg2 m ρ c]
  rfl

/-! ## Layer 1: the stretch between its two regions -/

/-- The aggregated messages: every node's weighted sum of its in-neighbours' rows of the product the region before left. -/
theorem s9_h : W9 m ρ c (Proc.devRef .tc main_v81) = Fn.aggT (m ((c.tc : Thread nD τ).loc main_arg1)) (W8 m ρ c (Proc.devRef .tc main_v68)) := by
  show after hostOps3 (W8 m ρ c) (Proc.devRef .tc main_v81) = _
  simp only [hostOps3]
  after_results_simp
  rw [at8_main_v3 m ρ c, at8_main_v6 m ρ c, at8_main_v29 m ρ c]
  rfl

/-- The folded scale row. -/
theorem s9_sc : W9 m ρ c (Proc.devRef .tc main_v99) = Fn.scaleRow (Fn.row1 (m ((c.tc : Thread nD τ).loc main_arg4))) (Fn.row1 (m ((c.tc : Thread nD τ).loc main_arg7))) := by
  show after hostOps3 (W8 m ρ c) (Proc.devRef .tc main_v99) = _
  simp only [hostOps3]
  after_results_simp
  rw [at8_main_arg4 m ρ c, at8_main_arg7 m ρ c]
  rfl

/-- The folded shift row. -/
theorem s9_sh : W9 m ρ c (Proc.devRef .tc main_v100) = Fn.shiftRow (Fn.row1 (m ((c.tc : Thread nD τ).loc main_arg5))) (Fn.row1 (m ((c.tc : Thread nD τ).loc main_arg3))) (Fn.row1 (m ((c.tc : Thread nD τ).loc main_arg6))) (Fn.row1 (m ((c.tc : Thread nD τ).loc main_arg4))) (Fn.row1 (m ((c.tc : Thread nD τ).loc main_arg7))) := by
  show after hostOps3 (W8 m ρ c) (Proc.devRef .tc main_v100) = _
  simp only [hostOps3]
  after_results_simp
  rw [at8_main_arg3 m ρ c, at8_main_arg4 m ρ c, at8_main_arg5 m ρ c, at8_main_arg6 m ρ c, at8_main_arg7 m ρ c]
  rfl

/-! ## Before the head -/

theorem s11_h : W11 m ρ c (Proc.devRef .tc main_v101) = W10 m ρ c (Proc.devRef .tc main_v101) := by
  show after hostOps4 (W10 m ρ c) (Proc.devRef .tc main_v101) = _
  simp only [hostOps4]
  after_results_simp

theorem s11_b1 : W11 m ρ c (Proc.devRef .tc main_v102) = shapeCast _ (m ((c.tc : Thread nD τ).loc main_arg9)) shapeCasts_S64_S1x64 := by
  show after hostOps4 (W10 m ρ c) (Proc.devRef .tc main_v102) = _
  simp only [hostOps4]
  after_results_simp
  rw [at10_main_arg9 m ρ c]
  rfl

theorem s11_b2 : W11 m ρ c (Proc.devRef .tc main_v103) = shapeCast _ (m ((c.tc : Thread nD τ).loc main_arg11)) shapeCasts_S1_S1x1 := by
  show after hostOps4 (W10 m ρ c) (Proc.devRef .tc main_v103) = _
  simp only [hostOps4]
  after_results_simp
  rw [at10_main_arg11 m ρ c]
  rfl

end Cert.KernelIdeal.HostVal

end
-- ==== Proof.Spec.lean ====
/-
  The three dense maps the node pipeline is built from, as functions of whole arrays over the extended reals, index by index.
  Rows are graph nodes (100000 of them), columns are features.

  * `mm`   : the product of a node-feature matrix with a 128 × 128 weight matrix, entry (n, f) = Σ_q x[n, q] · w[q, f].
  * `bnr`  : an affine map per feature followed by clipping at zero, entry (n, f) = max (h[n, f] · scale[f] + shift[f]) 0
               (batch normalisation with running statistics folded into one scale and one shift, then the rectifier).
  * `mlp`  : the two-layer head, entry (n, o) = Σ_j max (Σ_q h[n, q] · w1[q, j] + b1[j]) 0 · w2[j, o] + b2[o].
-/
import Idealize.ShloMosaic.PureOps.Ideal
import Idealize.ShloMosaic.Lib.ValueIdx

noncomputable section

namespace Cert.Spec

open Idealize.ShloMosaic Idealize.ShloMosaic.ValueIdx

abbrev SNx128 : Shape := ⟨2, ![100000, 128]⟩
abbrev SNx64 : Shape := ⟨2, ![100000, 64]⟩
abbrev SNx1 : Shape := ⟨2, ![100000, 1]⟩
abbrev S128x128 : Shape := ⟨2, ![128, 128]⟩
abbrev S128x64 : Shape := ⟨2, ![128, 64]⟩
abbrev S64x1 : Shape := ⟨2, ![64, 1]⟩
abbrev S1x128 : Shape := ⟨2, ![1, 128]⟩
abbrev S1x64 : Shape := ⟨2, ![1, 64]⟩
abbrev S1x1 : Shape := ⟨2, ![1, 1]⟩

/-- Node features times a square weight matrix. -/
def mm (x : SNx128.Idx → EReal) (w : S128x128.Idx → EReal) : SNx128.Idx → EReal :=
  fun i => ∑ q : Fin 128, x (ix2 (n0 := 100000) (n1 := 128) (i 0) q) * w (ix2 (n0 := 128) (n1 := 128) q (i 1))

/-- Per-feature scale and shift, then the rectifier. -/
def bnr (h : SNx128.Idx → EReal) (scale shift : S1x128.Idx → EReal) : SNx128.Idx → EReal :=
  fun i => max (h i * scale (ix2 (n0 := 1) (n1 := 128) 0 (i 1)) + shift (ix2 (n0 := 1) (n1 := 128) 0 (i 1))) 0

/-- The hidden layer of the head at node `n`, unit `j`. -/
def hidden (h : SNx128.Idx → EReal) (w1 : S128x64.Idx → EReal) (b1 : S1x64.Idx → EReal) (n : Fin 100000) (j : Fin 64) : EReal :=
  max ((∑ q : Fin 128, h (ix2 (n0 := 100000) (n1 := 128) n q) * w1 (ix2 (n0 := 128) (n1 := 64) q j)) + b1 (ix2 (n0 := 1) (n1 := 64) 0 j)) 0

/-- The two-layer head. -/
def mlp (h : SNx128.Idx → EReal) (w1 : S128x64.Idx → EReal) (b1 : S1x64.Idx → EReal) (w2 : S64x1.Idx → EReal) (b2 : S1x1.Idx → EReal) :
    SNx1.Idx → EReal :=
  fun i => (∑ j : Fin 64, hidden h w1 b1 (i 0) j * w2 (ix2 (n0 := 64) (n1 := 1) j (i 1))) + b2 (ix2 (n0 := 1) (n1 := 1) 0 (i 1))

end Cert.Spec

end
-- ==== Proof.RegionMm.lean ====
/-
  The two matrix-product regions, each read as one function of whole arrays over the extended reals.

  A region walks a grid of 20 points. At point t it takes rows 5000·t … 5000·t + 4999 (all 128 columns) of a
  100000 × 128 array x, takes the whole 128 × 128 array w, and writes rows 5000·t … 5000·t + 4999 of the
  100000 × 128 result. What it writes at row r, column f of the block is Σ_q xblock[r, q] · w[q, f]: the product
  accumulates into a zero block, and the changes of float format on the way in are the identity on extended reals.
  Row r of block t is row 5000·t + r of x, so the entry written at result row n = 5000·t + r, column f is
  Σ_q x[n, q] · w[q, f]. Every row n lies in exactly the block t = n / 5000, so after the 20 points the whole result
  is the product of x and w, entry by entry (`Cert.Spec.mm`).
-/
import proofs.«142205_j80229989089422_1_alg».proof.Proof.Gen.KernelIdeal.Frame
import proofs.«142205_j80229989089422_1_alg».proof.Proof.Spec
import Idealize.ShloMosaic.Lib.Pipeline.Value
import Idealize.ShloMosaic.Lib.ValueIdx
import Idealize.ShloMosaic.PureOps.Ideal.Laws

noncomputable section

namespace Cert.KernelIdeal.RegionMm

open Idealize.ShloMosaic Idealize.ShloMosaic.TcCoe Idealize.SL.Sem
open Idealize.ShloMosaic.Pipeline (Dat)
open Idealize.ShloMosaic.ValueIdx
open Cert.KernelIdeal Cert.KernelIdeal.Gen

/-- The offset (0, 0) of a whole-block access, as the constant-zero function. -/
theorem zero_offsets : (![0, 0] : Fin 2 → Nat) = fun _ => 0 := funext fun a => by fin_cases a <;> rfl

/-- The product's dimension numbers: contract column axis of the left operand with row axis of the right one;
    the result's rows are the left operand's, its columns the right operand's. -/
abbrev dotMm : DotDims S5000x128 S128x128 S5000x128 := dot_S5000x128_S128x128_S5000x128_1_0_0_1_n_n

/-- At result entry `i` and contraction position `q` the left operand is read at row `i 0` … -/
theorem lhs_row (i : S5000x128.Idx) (q : dotMm.contr.Idx) : (dotMm.lhsIdx i q 0).val = (i 0).val := by
  unfold DotDims.lhsIdx
  rw [dif_neg (show ¬(0 : Fin S5000x128.rank) ∈ dotMm.lhsBatch by decide), dif_pos (show (0 : Fin S5000x128.rank) ∈ dotMm.lhsNonContracting by decide)]
  rfl
/-- … and column `q`; -/
theorem lhs_col (i : S5000x128.Idx) (q : dotMm.contr.Idx) : (dotMm.lhsIdx i q 1).val = (q ⟨0, by decide⟩).val :=
  dotMm.lhsIdx_val_of_single rfl i q
/-- the right operand at row `q` … -/
theorem rhs_row (i : S5000x128.Idx) (q : dotMm.contr.Idx) : (dotMm.rhsIdx i q 0).val = (q ⟨0, by decide⟩).val :=
  dotMm.rhsIdx_val_of_single rfl i q
/-- … and column `i 1`. -/
theorem rhs_col (i : S5000x128.Idx) (q : dotMm.contr.Idx) : (dotMm.rhsIdx i q 1).val = (i 1).val := by
  unfold DotDims.rhsIdx
  rw [dif_neg (show ¬(1 : Fin S128x128.rank) ∈ dotMm.rhsBatch by decide), dif_pos (show (1 : Fin S128x128.rank) ∈ dotMm.rhsNonContracting by decide)]
  rfl

/-- What the first region's body stores at row `r`, column `f` of its block: `Σ_q x0[r, q] · x1[q, f]`, the product
    summed into zero, re-indexed from the one-axis contraction index to its coordinate `q`. -/
theorem pay0_apply (x0 : Vec Ideal S5000x128 .f32) (x1 : Vec Ideal S128x128 .f32) (r : Fin 5000) (f : Fin 128) :
    k0_pay1 (F := Ideal) x0 x1 (ix2 r f) = ∑ q : Fin 128, x0 (ix2 r q) * x1 (ix2 q f) := by
  unfold k0_pay1
  simp only [matmul, shapeCast_self]
  rw [Ideal.matmul_constant_zero_apply, ← Equiv.sum_comp (contrEquiv1 dotMm 128 rfl rfl).symm]
  refine Finset.sum_congr rfl fun k _ => ?_
  have hk := contrEquiv1_symm_val dotMm 128 rfl rfl k
  have el : dotMm.lhsIdx (ix2 r f) ((contrEquiv1 dotMm 128 rfl rfl).symm k) = ix2 r k := funext fun a => Fin.ext (by
    match a with
    | ⟨0, _⟩ => exact lhs_row _ _
    | ⟨1, _⟩ => exact (lhs_col _ _).trans hk)
  have er : dotMm.rhsIdx (ix2 r f) ((contrEquiv1 dotMm 128 rfl rfl).symm k) = ix2 k f := funext fun a => Fin.ext (by
    match a with
    | ⟨0, _⟩ => exact (rhs_row _ _).trans hk
    | ⟨1, _⟩ => exact rhs_col _ _)
  rw [el, er]
  rfl
/-- The same for the second product region's body (its operands pass one more reshaping to their own shape). -/
theorem pay2_apply (x0 : Vec Ideal S5000x128 .f32) (x1 : Vec Ideal S128x128 .f32) (r : Fin 5000) (f : Fin 128) :
    k2_pay1 (F := Ideal) x0 x1 (ix2 r f) = ∑ q : Fin 128, x0 (ix2 r q) * x1 (ix2 q f) := by
  unfold k2_pay1
  simp only [matmul, shapeCast_self]
  rw [Ideal.matmul_constant_zero_apply, ← Equiv.sum_comp (contrEquiv1 dotMm 128 rfl rfl).symm]
  refine Finset.sum_congr rfl fun k _ => ?_
  have hk := contrEquiv1_symm_val dotMm 128 rfl rfl k
  have el : dotMm.lhsIdx (ix2 r f) ((contrEquiv1 dotMm 128 rfl rfl).symm k) = ix2 r k := funext fun a => Fin.ext (by
    match a with
    | ⟨0, _⟩ => exact lhs_row _ _
    | ⟨1, _⟩ => exact (lhs_col _ _).trans hk)
  have er : dotMm.rhsIdx (ix2 r f) ((contrEquiv1 dotMm 128 rfl rfl).symm k) = ix2 k f := funext fun a => Fin.ext (by
    match a with
    | ⟨0, _⟩ => exact (rhs_row _ _).trans hk
    | ⟨1, _⟩ => exact rhs_col _ _)
  rw [el, er]
  rfl

/-! ## The first product region -/

/-- The block index maps over the 20 grid points: the row blocks of the input and of the result move with the point,
    the weight block stays at (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each of the 20 row blocks of the result is some point's. -/
theorem block_of_rows0 : ∀ q : Fin 20, ∃ t : Fin cfg0.N, win0_2.index t = ![q.val, 0] :=
  (by decide +kernel : ∀ q : Fin 20, ∃ t : Fin grid0.N, win0_2.index t = ![q.val, 0])

section
variable (V : (c : Dev nD) → (b : Ref sig .tc) → Buf (Elt Ideal) ((c : Thread nD τ).loc b)) (c : Dev nD)

/-- Entry `y` of the input's block at point `t` is the input array's entry at row `5000·t + y 0`, column `y 1`. -/
theorem rows_block0 (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c (Pipeline.arrRef spec0 0) : S100000x128.Idx → EReal) k := by
  obtain ⟨e0, e1, -⟩ := index_maps0 t
  unfold iblk0
  rw [View.read_apply]
  refine congrArg (V c (Pipeline.arrRef spec0 0)) (?_ : ((cfg0.win 0).blk t).view.emb y = k)
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- The weight window's block at every point is the whole weight array. -/
theorem weights_block0 (t : Fin cfg0.N) (y : S128x128.Idx) (k : S128x128.Idx)
    (hk0 : (k 0).val = (y 0).val) (hk1 : (k 1).val = (y 1).val) :
    (iblk0 V c 1 t : Vec Ideal S128x128 .f32) y = (V c (Pipeline.arrRef spec0 1) : S128x128.Idx → EReal) k := by
  obtain ⟨-, -, e2, e3, -⟩ := index_maps0 t
  unfold iblk0
  rw [View.read_apply]
  refine congrArg (V c (Pipeline.arrRef spec0 1)) (?_ : ((cfg0.win 1).blk t).view.emb y = k)
  funext a
  apply Fin.ext
  match a with
  | ⟨0, _⟩ => show win0_1.index t (0 : Fin 2) * 128 + 1 * (y 0).val = (k 0).val; rw [e2, hk0]; omega
  | ⟨1, _⟩ => show win0_1.index t (1 : Fin 2) * 128 + 1 * (y 1).val = (k 1).val; rw [e3, hk1]; omega

/-- What point `t` writes back is block `t` of the product of the two arrays as the region finds them: entry (r, f)
    of the block is `Σ_q x[5000·t + r, q] · w[q, f]`. -/
theorem flushed0 (t : Fin cfg0.N) :
    (dat0 (F := Ideal) V c).flushed 2 t
      = ((cfg0.win 2).blk t).view.read (Elt Ideal) (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := index_maps0 t
  funext y
  obtain ⟨r, f, rfl⟩ : ∃ (r : Fin 5000) (f : Fin 128), y = ix2 r f := ⟨y 0, y 1, eq_ix2 y⟩
  have h0 : ((((cfg0.win 2).blk t).view.emb (ix2 r f) : S100000x128.Idx) 0).val = 5000 * t.val + r.val := by
    show win0_2.index t (0 : Fin 2) * 5000 + 1 * r.val = _; rw [e4]; omega
  have h1 : ((((cfg0.win 2).blk t).view.emb (ix2 r f) : S100000x128.Idx) 1).val = f.val := by
    show win0_2.index t (1 : Fin 2) * 128 + 1 * f.val = _; rw [e5]; omega
  show k0_pay1 (F := Ideal) (iblk0 V c 0 t) (iblk0 V c 1 t) (ix2 r f)
    = Cert.Spec.mm (V c (Pipeline.arrRef spec0 0)) (V c (Pipeline.arrRef spec0 1)) (((cfg0.win 2).blk t).view.emb (ix2 r f))
  refine (pay0_apply _ _ r f).trans ?_
  unfold Cert.Spec.mm
  refine Finset.sum_congr rfl fun q _ => ?_
  rw [rows_block0 V c t (ix2 r q) (ix2 ((((cfg0.win 2).blk t).view.emb (ix2 r f) : S100000x128.Idx) 0) q) h0 rfl,
    weights_block0 V c t (ix2 q f) (ix2 q ((((cfg0.win 2).blk t).view.emb (ix2 r f) : S100000x128.Idx) 1)) rfl h1]

/-- An index of the result lies in point `t`'s block iff each coordinate lies in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the result is written: row `n` lies in the block of the point whose block index is `n / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_of_rows0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the product of the input array and the weight array, entry by entry. -/
theorem final0 : (Gen.dat0 (F := Ideal) V c).arrAt 2 cfg0.N
    = Cert.Spec.mm (V c (Pipeline.arrRef spec0 0)) (V c (Pipeline.arrRef spec0 1)) :=
  (dat0 (F := Ideal) V c).arrAt_eq_of_cover 2 _ (fun t _ => flushed0 V c t) (cover0)

end

/-! ## The second product region -/

/-- The block index maps over the 20 grid points: the row blocks of the input and of the result move with the point,
    the weight block stays at (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Each of the 20 row blocks of the result is some point's. -/
theorem block_of_rows2 : ∀ q : Fin 20, ∃ t : Fin cfg2.N, win2_2.index t = ![q.val, 0] :=
  (by decide +kernel : ∀ q : Fin 20, ∃ t : Fin grid2.N, win2_2.index t = ![q.val, 0])

section
variable (V : (c : Dev nD) → (b : Ref sig .tc) → Buf (Elt Ideal) ((c : Thread nD τ).loc b)) (c : Dev nD)

/-- Entry `y` of the input's block at point `t` is the input array's entry at row `5000·t + y 0`, column `y 1`. -/
theorem rows_block2 (t : Fin cfg2.N) (y : S5000x128.Idx) (k : S100000x128.Idx)
    (hk0 : (k 0).val = 5000 * t.val + (y 0).val) (hk1 : (k 1).val = (y 1).val) :
    (iblk2 V c 0 t : Vec Ideal S5000x128 .f32) y = (V c (Pipeline.arrRef spec2 0) : S100000x128.Idx → EReal) k := by
  obtain ⟨e0, e1, -⟩ := index_maps2 t
  unfold iblk2
  rw [View.read_apply]
  refine congrArg (V c (Pipeline.arrRef spec2 0)) (?_ : ((cfg2.win 0).blk t).view.emb y = k)
  funext a
  apply Fin.ext
  match a with
  | ⟨0, _⟩ => show win2_0.index t (0 : Fin 2) * 5000 + 1 * (y 0).val = (k 0).val; rw [e0, hk0]; omega
  | ⟨1, _⟩ => show win2_0.index t (1 : Fin 2) * 128 + 1 * (y 1).val = (k 1).val; rw [e1, hk1]; omega

/-- The weight window's block at every point is the whole weight array. -/
theorem weights_block2 (t : Fin cfg2.N) (y : S128x128.Idx) (k : S128x128.Idx)
    (hk0 : (k 0).val = (y 0).val) (hk1 : (k 1).val = (y 1).val) :
    (iblk2 V c 1 t : Vec Ideal S128x128 .f32) y = (V c (Pipeline.arrRef spec2 1) : S128x128.Idx → EReal) k := by
  obtain ⟨-, -, e2, e3, -⟩ := index_maps2 t
  unfold iblk2
  rw [View.read_apply]
  refine congrArg (V c (Pipeline.arrRef spec2 1)) (?_ : ((cfg2.win 1).blk t).view.emb y = k)
  funext a
  apply Fin.ext
  match a with
  | ⟨0, _⟩ => show win2_1.index t (0 : Fin 2) * 128 + 1 * (y 0).val = (k 0).val; rw [e2, hk0]; omega
  | ⟨1, _⟩ => show win2_1.index t (1 : Fin 2) * 128 + 1 * (y 1).val = (k 1).val; rw [e3, hk1]; omega

/-- What point `t` writes back is block `t` of the product of the two arrays as the region finds them: entry (r, f)
    of the block is `Σ_q x[5000·t + r, q] · w[q, f]`. -/
theorem flushed2 (t : Fin cfg2.N) :
    (dat2 (F := Ideal) V c).flushed 2 t
      = ((cfg2.win 2).blk t).view.read (Elt Ideal) (Cert.Spec.mm (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨-, -, -, -, e4, e5⟩ := index_maps2 t
  funext y
  obtain ⟨r, f, rfl⟩ : ∃ (r : Fin 5000) (f : Fin 128), y = ix2 r f := ⟨y 0, y 1, eq_ix2 y⟩
  have h0 : ((((cfg2.win 2).blk t).view.emb (ix2 r f) : S100000x128.Idx) 0).val = 5000 * t.val + r.val := by
    show win2_2.index t (0 : Fin 2) * 5000 + 1 * r.val = _; rw [e4]; omega
  have h1 : ((((cfg2.win 2).blk t).view.emb (ix2 r f) : S100000x128.Idx) 1).val = f.val := by
    show win2_2.index t (1 : Fin 2) * 128 + 1 * f.val = _; rw [e5]; omega
  show k2_pay1 (F := Ideal) (iblk2 V c 0 t) (iblk2 V c 1 t) (ix2 r f)
    = Cert.Spec.mm (V c (Pipeline.arrRef spec2 0)) (V c (Pipeline.arrRef spec2 1)) (((cfg2.win 2).blk t).view.emb (ix2 r f))
  refine (pay2_apply _ _ r f).trans ?_
  unfold Cert.Spec.mm
  refine Finset.sum_congr rfl fun q _ => ?_
  rw [rows_block2 V c t (ix2 r q) (ix2 ((((cfg2.win 2).blk t).view.emb (ix2 r f) : S100000x128.Idx) 0) q) h0 rfl,
    weights_block2 V c t (ix2 q f) (ix2 q ((((cfg2.win 2).blk t).view.emb (ix2 r f) : S100000x128.Idx) 1)) rfl h1]

/-- An index of the result lies in point `t`'s block iff each coordinate lies in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v68).slice (win2_2.rect t)).set ↔ _
  rw [View.set_slice_whole, Rect.mem_set_unit]
  exact Iff.rfl

/-- Every entry of the result is written: row `n` lies in the block of the point whose block index is `n / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_of_rows2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the product of the input array and the weight array, entry by entry. -/
theorem final2 : (Gen.dat2 (F := Ideal) V c).arrAt 2 cfg2.N
    = Cert.Spec.mm (V c (Pipeline.arrRef spec2 0)) (V c (Pipeline.arrRef spec2 1)) :=
  (dat2 (F := Ideal) V c).arrAt_eq_of_cover 2 _ (fun t _ => flushed2 V c t) (cover2)

end

end Cert.KernelIdeal.RegionMm

end
-- ==== Proof.RegionBn.lean ====
/-
  Regions 1 and 3 of the idealized kernel program: a per-feature scale and shift followed by clipping at zero,
  over the 100000 × 128 node-feature array in twenty row blocks of 5000 rows. Each grid point reads one row block of
  the features and the whole 1 × 128 scale and shift rows, and writes back the same row block of the result, whose
  entry (n, f) is max (h[n, f] · scale[f] + shift[f]) 0. The twenty row blocks tile the array (row r lies in block
  r / 5000), so after the region the output array is that function of the three input arrays at every index.
-/
import proofs.«142205_j80229989089422_1_alg».proof.Proof.Gen.KernelIdeal.Frame
import proofs.«142205_j80229989089422_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.RegionBn

open Cert.KernelIdeal Cert.KernelIdeal.Gen
open Idealize.ShloMosaic Idealize.ShloMosaic.TcCoe Idealize.SL.Sem
open Idealize.ShloMosaic.ValueIdx
open Idealize.ShloMosaic.Pipeline (Dat)

/-- The zero offsets of a whole-block access, however spelt. -/
theorem hz : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 1 -/

/-- The payload of region 1 at row p, column q of the block: scale, shift, clip at zero. -/
theorem pay1_apply (x : Vec Ideal S5000x128 .f32) (sc sh : Vec Ideal S1x128 .f32) (p : Fin 5000) (q : Fin 128) :
    k1_pay1 (F := Ideal) x sc sh (ix2 p q) = max (x (ix2 p q) * sc (ix2 (0 : Fin 1) q) + sh (ix2 (0 : Fin 1) q)) 0 := by
  unfold k1_pay1
  rw [maximumf_apply, addf_apply, mulf_apply, broadcast_apply, shapeCast_self, shapeCast_self, shapeCast_self,
    broadcastTo_1b_ab_apply, broadcastTo_1b_ab_apply, Ideal.ofBits_def, Ideal.ofBits_zero_f32]

/-- The same at any index of the block. -/
theorem pay1_at (x : Vec Ideal S5000x128 .f32) (sc sh : Vec Ideal S1x128 .f32) (j : S5000x128.Idx) :
    k1_pay1 (F := Ideal) x sc sh j
      = max (x j * sc (ix2 (n0 := 1) (n1 := 128) 0 (j 1)) + sh (ix2 (n0 := 1) (n1 := 128) 0 (j 1))) 0 := by
  obtain ⟨p, q, rfl⟩ : ∃ (p : Fin 5000) (q : Fin 128), j = ix2 p q := ⟨j 0, j 1, eq_ix2 j⟩
  exact pay1_apply x sc sh p q

/-- The printed index maps of region 1, decided over the twenty grid points: the feature window and the output window
    are at row block t, column block 0; the scale and shift windows are at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point t is rows 5000 t … 5000 t + 4999 of the feature array, all columns. -/
theorem iblk1_0_apply (t : Fin cfg1.N) (y : S5000x128.Idx) (k : S100000x128.Idx)
    (hk0 : (k 0).val = 5000 * t.val + (y 0).val) (hk1 : (k 1).val = (y 1).val) :
    (iblk1 (F := Ideal) V c 0 t : Vec Ideal S5000x128 .f32) y = (V c (Pipeline.arrRef spec1 0) : S100000x128.Idx → EReal) k := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The scale window's block at every point is the whole scale row. -/
theorem iblk1_1_apply (t : Fin cfg1.N) (y : S1x128.Idx) :
    (iblk1 (F := Ideal) V c 1 t : Vec Ideal S1x128 .f32) y = (V c (Pipeline.arrRef spec1 1) : S1x128.Idx → EReal) y := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

/-- The shift window's block at every point is the whole shift row. -/
theorem iblk1_2_apply (t : Fin cfg1.N) (y : S1x128.Idx) :
    (iblk1 (F := Ideal) V c 2 t : Vec Ideal S1x128 .f32) y = (V c (Pipeline.arrRef spec1 2) : S1x128.Idx → EReal) y := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- WHAT POINT t WRITES BACK in region 1 is row block t of the scaled, shifted and clipped features. -/
theorem flushed1_eq (t : Fin cfg1.N) :
    (dat1 (F := Ideal) V c).flushed 3 t = ((cfg1.win 3).blk t).view.read (Elt Ideal)
      (Cert.Spec.bnr (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz]
  simp only [View.ld_unit_zero (S := S5000x128) hz, View.ld_unit_zero (S := S1x128) hz]
  obtain ⟨-, -, -, -, -, -, e0, e1⟩ := idx_facts1 t
  funext y
  rw [View.read_apply]
  refine (pay1_at _ _ _ _).trans ?_
  rw [iblk1_1_apply, iblk1_2_apply]
  -- the element's place in the array: row 5000 t + its row in the block, the same column
  have hI0 : ((((cfg1.win 3).blk t).view.emb y : S100000x128.Idx) 0).val = 5000 * t.val + (y 0).val := by
    show win1_3.index t 0 * 5000 + 1 * (y 0).val = _; rw [e0]; omega
  have hI1 : ((((cfg1.win 3).blk t).view.emb y : S100000x128.Idx) 1).val = (y 1).val := by
    show win1_3.index t 1 * 128 + 1 * (y 1).val = _; rw [e1]; omega
  rw [iblk1_0_apply V c t ((win1 3).xinj (grid1.coords t) y) (((cfg1.win 3).blk t).view.emb y) hI0 hI1]
  have hcol : (ix2 (n0 := 1) (n1 := 128) 0 ((win1 3).xinj (grid1.coords t) y 1) : S1x128.Idx)
      = ix2 (n0 := 1) (n1 := 128) 0 ((((cfg1.win 3).blk t).view.emb y : S100000x128.Idx) 1) :=
    congrArg (ix2 (n0 := 1) (n1 := 128) 0) (Fin.ext hI1.symm)
  rw [hcol]
  rfl

/-- An index of the array is in point t's block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v65).slice (win1_3.rect t)).set ↔ _
  rw [View.set_slice_whole, Rect.mem_set_unit]
  exact Iff.rfl

/-- The twenty row blocks tile the array: row r is in block r / 5000. -/
theorem cover1 (i : S100000x128.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 128 := (i 1).isLt
  have ht : (i 0).val / 5000 < cfg1.N := by show (i 0).val / 5000 < grid1.N; rw [hN]; omega
  refine ⟨⟨(i 0).val / 5000, ht⟩, flush1_3 _, ?_⟩
  obtain ⟨-, -, -, -, -, -, e0, e1⟩ := idx_facts1 ⟨(i 0).val / 5000, ht⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e1]; omega

/-- REGION 1: after the region the output array is the scaled, shifted and clipped feature array, index by index. -/
theorem final1 : (dat1 (F := Ideal) V c).arrAt 3 cfg1.N
    = Cert.Spec.bnr (V c (Pipeline.arrRef spec1 0)) (V c (Pipeline.arrRef spec1 1)) (V c (Pipeline.arrRef spec1 2)) :=
  (dat1 (F := Ideal) V c).arrAt_eq_of_cover 3
    (Cert.Spec.bnr (V c (Pipeline.arrRef spec1 0)) (V c (Pipeline.arrRef spec1 1)) (V c (Pipeline.arrRef spec1 2)))
    (fun t _ => flushed1_eq V c t) cover1

/-! ## Region 3 -/

/-- The payload of region 3 at row p, column q of the block: scale, shift, clip at zero. -/
theorem pay3_apply (x : Vec Ideal S5000x128 .f32) (sc sh : Vec Ideal S1x128 .f32) (p : Fin 5000) (q : Fin 128) :
    k3_pay1 (F := Ideal) x sc sh (ix2 p q) = max (x (ix2 p q) * sc (ix2 (0 : Fin 1) q) + sh (ix2 (0 : Fin 1) q)) 0 := by
  unfold k3_pay1
  rw [maximumf_apply, addf_apply, mulf_apply, broadcast_apply, shapeCast_self, shapeCast_self, shapeCast_self,
    broadcastTo_1b_ab_apply, broadcastTo_1b_ab_apply, Ideal.ofBits_def, Ideal.ofBits_zero_f32]

/-- The same at any index of the block. -/
theorem pay3_at (x : Vec Ideal S5000x128 .f32) (sc sh : Vec Ideal S1x128 .f32) (j : S5000x128.Idx) :
    k3_pay1 (F := Ideal) x sc sh j
      = max (x j * sc (ix2 (n0 := 1) (n1 := 128) 0 (j 1)) + sh (ix2 (n0 := 1) (n1 := 128) 0 (j 1))) 0 := by
  obtain ⟨p, q, rfl⟩ : ∃ (p : Fin 5000) (q : Fin 128), j = ix2 p q := ⟨j 0, j 1, eq_ix2 j⟩
  exact pay3_apply x sc sh p q

/-- The printed index maps of region 3, decided over the twenty grid points: the feature window and the output window
    are at row block t, column block 0; the scale and shift windows are at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature window's block at point t is rows 5000 t … 5000 t + 4999 of the feature array, all columns. -/
theorem iblk3_0_apply (t : Fin cfg3.N) (y : S5000x128.Idx) (k : S100000x128.Idx)
    (hk0 : (k 0).val = 5000 * t.val + (y 0).val) (hk1 : (k 1).val = (y 1).val) :
    (iblk3 (F := Ideal) V c 0 t : Vec Ideal S5000x128 .f32) y = (V c (Pipeline.arrRef spec3 0) : S100000x128.Idx → EReal) k := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * (y 0).val = (k 0).val; rw [e0, hk0]; omega
  | ⟨1, _⟩ => show win3_0.index t 1 * 128 + 1 * (y 1).val = (k 1).val; rw [e1, hk1]; omega

/-- The scale window's block at every point is the whole scale row. -/
theorem iblk3_1_apply (t : Fin cfg3.N) (y : S1x128.Idx) :
    (iblk3 (F := Ideal) V c 1 t : Vec Ideal S1x128 .f32) y = (V c (Pipeline.arrRef spec3 1) : S1x128.Idx → EReal) y := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * (y 0).val = (y 0).val; rw [e0]; omega
  | ⟨1, _⟩ => show win3_1.index t 1 * 128 + 1 * (y 1).val = (y 1).val; rw [e1]; omega

/-- The shift window's block at every point is the whole shift row. -/
theorem iblk3_2_apply (t : Fin cfg3.N) (y : S1x128.Idx) :
    (iblk3 (F := Ideal) V c 2 t : Vec Ideal S1x128 .f32) y = (V c (Pipeline.arrRef spec3 2) : S1x128.Idx → EReal) y := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-- WHAT POINT t WRITES BACK in region 3 is row block t of the scaled, shifted and clipped features. -/
theorem flushed3_eq (t : Fin cfg3.N) :
    (dat3 (F := Ideal) V c).flushed 3 t = ((cfg3.win 3).blk t).view.read (Elt Ideal)
      (Cert.Spec.bnr (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz]
  simp only [View.ld_unit_zero (S := S5000x128) hz, View.ld_unit_zero (S := S1x128) hz]
  obtain ⟨-, -, -, -, -, -, e0, e1⟩ := idx_facts3 t
  funext y
  rw [View.read_apply]
  refine (pay3_at _ _ _ _).trans ?_
  rw [iblk3_1_apply, iblk3_2_apply]
  -- the element's place in the array: row 5000 t + its row in the block, the same column
  have hI0 : ((((cfg3.win 3).blk t).view.emb y : S100000x128.Idx) 0).val = 5000 * t.val + (y 0).val := by
    show win3_3.index t 0 * 5000 + 1 * (y 0).val = _; rw [e0]; omega
  have hI1 : ((((cfg3.win 3).blk t).view.emb y : S100000x128.Idx) 1).val = (y 1).val := by
    show win3_3.index t 1 * 128 + 1 * (y 1).val = _; rw [e1]; omega
  rw [iblk3_0_apply V c t ((win3 3).xinj (grid3.coords t) y) (((cfg3.win 3).blk t).view.emb y) hI0 hI1]
  have hcol : (ix2 (n0 := 1) (n1 := 128) 0 ((win3 3).xinj (grid3.coords t) y 1) : S1x128.Idx)
      = ix2 (n0 := 1) (n1 := 128) 0 ((((cfg3.win 3).blk t).view.emb y : S100000x128.Idx) 1) :=
    congrArg (ix2 (n0 := 1) (n1 := 128) 0) (Fin.ext hI1.symm)
  rw [hcol]
  rfl

/-- An index of the array is in point t's block iff each coordinate is in the block's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v101).slice (win3_3.rect t)).set ↔ _
  rw [View.set_slice_whole, Rect.mem_set_unit]
  exact Iff.rfl

/-- The twenty row blocks tile the array: row r is in block r / 5000. -/
theorem cover3 (i : S100000x128.Idx) :
    ∃ t : Fin cfg3.N, (cfg3.win 3).flush t = true ∧ i ∈ ((cfg3.win 3).blk t).view.set := by
  have hN : grid3.N = 20 := N_3
  have hi0 : (i 0).val < 100000 := (i 0).isLt
  have hi1 : (i 1).val < 128 := (i 1).isLt
  have ht : (i 0).val / 5000 < cfg3.N := by show (i 0).val / 5000 < grid3.N; rw [hN]; omega
  refine ⟨⟨(i 0).val / 5000, ht⟩, flush3_3 _, ?_⟩
  obtain ⟨-, -, -, -, -, -, e0, e1⟩ := idx_facts3 ⟨(i 0).val / 5000, ht⟩
  rw [mem_blk3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- REGION 3: after the region the output array is the scaled, shifted and clipped feature array, index by index. -/
theorem final3 : (dat3 (F := Ideal) V c).arrAt 3 cfg3.N
    = Cert.Spec.bnr (V c (Pipeline.arrRef spec3 0)) (V c (Pipeline.arrRef spec3 1)) (V c (Pipeline.arrRef spec3 2)) :=
  (dat3 (F := Ideal) V c).arrAt_eq_of_cover 3
    (Cert.Spec.bnr (V c (Pipeline.arrRef spec3 0)) (V c (Pipeline.arrRef spec3 1)) (V c (Pipeline.arrRef spec3 2)))
    (fun t _ => flushed3_eq V c t) cover3

end Cert.KernelIdeal.RegionBn

end
-- ==== Proof.RegionMlp.lean ====
/-
  The head region's result array as ONE function of the region's five input arrays.

  The region visits 20 grid points. Point `t` holds rows `5000 t … 5000 t + 4999` of the [100000, 128] activations
  (all 128 columns) and of the [100000, 1] result, and the [128, 64] weights, the [1, 64] bias row, the [64, 1] weights
  and the [1, 1] bias whole. Over the extended reals the body's stored value at row `p`, column `o` of its block is

      Σ_j max (Σ_q x[p, q] · w1[q, j] + b1[0, j]) 0 · w2[j, o] + b2[0, o]

  (a change of float format is the identity there, both products accumulate into zero, and each bias row is repeated
  down the rows). Row `p` of block `t` is row `5000 t + p` of the array, so what point `t` writes back is block `t` of
  `Cert.Spec.mlp` of the five arrays; row `r` of the result lies in the block of point `r / 5000`, so the twenty blocks
  fill the result and it ends holding `Cert.Spec.mlp` of the arrays as the region finds them.
-/
import proofs.«142205_j80229989089422_1_alg».proof.Proof.Gen.KernelIdeal.Frame
import proofs.«142205_j80229989089422_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionMlp

open Cert.KernelIdeal Cert.KernelIdeal.Gen Idealize.ShloMosaic Idealize.ShloMosaic.TcCoe Idealize.SL.Sem
open Idealize.ShloMosaic.ValueIdx
open Idealize.ShloMosaic.Pipeline (Dat)

/-- The first product of the head at one entry: row `p` of the block against column `j` of the first weight
    matrix, summed over the 128 input features. -/
theorem mm1_apply (l : FVec Ideal S5000x128 .bf16) (r : FVec Ideal S128x64 .bf16) (p : Fin 5000) (j : Fin 64) :
    matmul dot_S5000x128_S128x64_S5000x64_1_0_0_1_n_n none l r (constant (F := Ideal) S5000x64 .f32 0x00000000#32) (ix2 p j)
      = ∑ q : Fin 128, l (ix2 p q) * r (ix2 q j) := by
  refine (Ideal.matmul_constant_zero_apply dot_S5000x128_S128x64_S5000x64_1_0_0_1_n_n none l r (ix2 p j)).trans ?_
  rw [← Equiv.sum_comp (contrEquiv1 dot_S5000x128_S128x64_S5000x64_1_0_0_1_n_n 128 rfl rfl).symm]
  refine Finset.sum_congr rfl fun q _ => ?_
  have hl : dot_S5000x128_S128x64_S5000x64_1_0_0_1_n_n.lhsIdx (ix2 p j) ((contrEquiv1 dot_S5000x128_S128x64_S5000x64_1_0_0_1_n_n 128 rfl rfl).symm q) = ix2 p q := by
    funext a; apply Fin.ext
    match a with
    | ⟨0, _⟩ => rfl
    | ⟨1, _⟩ =>
      exact (dot_S5000x128_S128x64_S5000x64_1_0_0_1_n_n.lhsIdx_val_of_single (cl := (1 : Fin 2)) rfl (ix2 p j) _).trans
        (contrEquiv1_symm_val dot_S5000x128_S128x64_S5000x64_1_0_0_1_n_n 128 rfl rfl q)
  have hr : dot_S5000x128_S128x64_S5000x64_1_0_0_1_n_n.rhsIdx (ix2 p j) ((contrEquiv1 dot_S5000x128_S128x64_S5000x64_1_0_0_1_n_n 128 rfl rfl).symm q) = ix2 q j := by
    funext a; apply Fin.ext
    match a with
    | ⟨0, _⟩ =>
      exact (dot_S5000x128_S128x64_S5000x64_1_0_0_1_n_n.rhsIdx_val_of_single (cr := (0 : Fin 2)) rfl (ix2 p j) _).trans
        (contrEquiv1_symm_val dot_S5000x128_S128x64_S5000x64_1_0_0_1_n_n 128 rfl rfl q)
    | ⟨1, _⟩ => rfl
  rw [hl, hr]

/-- The second product of the head at one entry: row `p` of the hidden layer against column `o` of the second
    weight matrix, summed over the 64 hidden units. -/
theorem mm2_apply (l : FVec Ideal S5000x64 .bf16) (r : FVec Ideal S64x1 .bf16) (p : Fin 5000) (o : Fin 1) :
    matmul dot_S5000x64_S64x1_S5000x1_1_0_0_1_n_n none l r (constant (F := Ideal) S5000x1 .f32 0x00000000#32) (ix2 p o)
      = ∑ j : Fin 64, l (ix2 p j) * r (ix2 j o) := by
  refine (Ideal.matmul_constant_zero_apply dot_S5000x64_S64x1_S5000x1_1_0_0_1_n_n none l r (ix2 p o)).trans ?_
  rw [← Equiv.sum_comp (contrEquiv1 dot_S5000x64_S64x1_S5000x1_1_0_0_1_n_n 64 rfl rfl).symm]
  refine Finset.sum_congr rfl fun j _ => ?_
  have hl : dot_S5000x64_S64x1_S5000x1_1_0_0_1_n_n.lhsIdx (ix2 p o) ((contrEquiv1 dot_S5000x64_S64x1_S5000x1_1_0_0_1_n_n 64 rfl rfl).symm j) = ix2 p j := by
    funext a; apply Fin.ext
    match a with
    | ⟨0, _⟩ => rfl
    | ⟨1, _⟩ =>
      exact (dot_S5000x64_S64x1_S5000x1_1_0_0_1_n_n.lhsIdx_val_of_single (cl := (1 : Fin 2)) rfl (ix2 p o) _).trans
        (contrEquiv1_symm_val dot_S5000x64_S64x1_S5000x1_1_0_0_1_n_n 64 rfl rfl j)
  have hr : dot_S5000x64_S64x1_S5000x1_1_0_0_1_n_n.rhsIdx (ix2 p o) ((contrEquiv1 dot_S5000x64_S64x1_S5000x1_1_0_0_1_n_n 64 rfl rfl).symm j) = ix2 j o := by
    funext a; apply Fin.ext
    match a with
    | ⟨0, _⟩ =>
      exact (dot_S5000x64_S64x1_S5000x1_1_0_0_1_n_n.rhsIdx_val_of_single (cr := (0 : Fin 2)) rfl (ix2 p o) _).trans
        (contrEquiv1_symm_val dot_S5000x64_S64x1_S5000x1_1_0_0_1_n_n 64 rfl rfl j)
    | ⟨1, _⟩ => rfl
  rw [hl, hr]

/-- The body's stored value at row `p` of the block, column `o`: the hidden layer (first product plus the bias row,
    clipped at zero) against the second weight matrix, plus the output bias. The changes of float format are the
    identity on the extended reals, the accumulators are zero, and each bias row is repeated down the rows. -/
theorem pay_apply (x : Vec Ideal S5000x128 .f32) (w1 : Vec Ideal S128x64 .f32) (b1 : Vec Ideal S1x64 .f32)
    (w2 : Vec Ideal S64x1 .f32) (b2 : Vec Ideal S1x1 .f32) (p : Fin 5000) (o : Fin 1) :
    k4_pay1 x w1 b1 w2 b2 (ix2 p o)
      = (∑ j : Fin 64, max ((∑ q : Fin 128, x (ix2 p q) * w1 (ix2 q j)) + b1 (ix2 0 j)) 0 * w2 (ix2 j o)) + b2 (ix2 0 o) := by
  unfold k4_pay1
  simp only [shapeCast_self]
  refine (addf_apply _ _ (ix2 p o)).trans ?_
  refine congrArg₂ (· + ·) ?_ (broadcastTo_1b_ab_apply b2 broadcasts_S1x1_S5000x1 p o)
  refine (mm2_apply _ _ p o).trans ?_
  refine Finset.sum_congr rfl fun j _ => ?_
  refine congrArg₂ (· * ·) ?_ rfl
  show max (_ + _) _ = _
  refine congrArg₂ max (congrArg₂ (· + ·) (mm1_apply _ _ p j) (broadcastTo_1b_ab_apply b1 broadcasts_S1x64_S5000x64 p j)) ?_
  exact Ideal.ofBits_zero_f32

/-- The block-origin vector of every access of the body: the whole staging buffer, from its corner. -/
theorem hz : (![0, 0] : Fin 2 → Nat) = fun _ => 0 := funext fun a => by fin_cases a <;> rfl

/-- The windows' index maps at each of the 20 grid points: the activations' window and the result's window are at block row
    `t`, block column 0; the four small operands stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- Row `p` of the activations' block at point `t` is row `5000 t + p` of the activations. -/
theorem blk0_apply (c : Dev nD) (t : Fin cfg4.N) (p : Fin 5000) (q : Fin 128) (n : Fin 100000)
    (hn : n.val = 5000 * t.val + p.val) :
    (iblk4 V c 0 t : Vec Ideal S5000x128 .f32) (ix2 p q)
      = (V c (Pipeline.arrRef spec4 0) : Spec.SNx128.Idx → EReal) (ix2 n q) := by
  obtain ⟨e0, e1, -⟩ := idx_facts t
  unfold iblk4
  rw [View.read_apply]
  refine congrArg (V c (Pipeline.arrRef spec4 0)) ?_
  funext a; apply Fin.ext
  match a with
  | ⟨0, _⟩ => show win4_0.index t (0 : Fin 2) * 5000 + 1 * p.val = n.val; rw [e0, hn]; omega
  | ⟨1, _⟩ => show win4_0.index t (1 : Fin 2) * 128 + 1 * q.val = q.val; rw [e1]; omega

/-- The first weight matrix's window is the whole matrix at every point. -/
theorem blk1_apply (c : Dev nD) (t : Fin cfg4.N) (q : Fin 128) (j : Fin 64) :
    (iblk4 V c 1 t : Vec Ideal S128x64 .f32) (ix2 q j)
      = (V c (Pipeline.arrRef spec4 1) : Spec.S128x64.Idx → EReal) (ix2 q j) := by
  obtain ⟨-, -, e0, e1, -⟩ := idx_facts t
  unfold iblk4
  rw [View.read_apply]
  refine congrArg (V c (Pipeline.arrRef spec4 1)) ?_
  funext a; apply Fin.ext
  match a with
  | ⟨0, _⟩ => show win4_1.index t (0 : Fin 2) * 128 + 1 * q.val = q.val; rw [e0]; omega
  | ⟨1, _⟩ => show win4_1.index t (1 : Fin 2) * 64 + 1 * j.val = j.val; rw [e1]; omega

/-- The first bias row's window is the whole row at every point. -/
theorem blk2_apply (c : Dev nD) (t : Fin cfg4.N) (u : Fin 1) (j : Fin 64) :
    (iblk4 V c 2 t : Vec Ideal S1x64 .f32) (ix2 u j)
      = (V c (Pipeline.arrRef spec4 2) : Spec.S1x64.Idx → EReal) (ix2 u j) := by
  obtain ⟨-, -, -, -, e0, e1, -⟩ := idx_facts t
  unfold iblk4
  rw [View.read_apply]
  refine congrArg (V c (Pipeline.arrRef spec4 2)) ?_
  funext a; apply Fin.ext
  match a with
  | ⟨0, _⟩ => show win4_2.index t (0 : Fin 2) * 1 + 1 * u.val = u.val; rw [e0]; omega
  | ⟨1, _⟩ => show win4_2.index t (1 : Fin 2) * 64 + 1 * j.val = j.val; rw [e1]; omega

/-- The second weight matrix's window is the whole matrix at every point. -/
theorem blk3_apply (c : Dev nD) (t : Fin cfg4.N) (j : Fin 64) (o : Fin 1) :
    (iblk4 V c 3 t : Vec Ideal S64x1 .f32) (ix2 j o)
      = (V c (Pipeline.arrRef spec4 3) : Spec.S64x1.Idx → EReal) (ix2 j o) := by
  obtain ⟨-, -, -, -, -, -, e0, e1, -⟩ := idx_facts t
  unfold iblk4
  rw [View.read_apply]
  refine congrArg (V c (Pipeline.arrRef spec4 3)) ?_
  funext a; apply Fin.ext
  match a with
  | ⟨0, _⟩ => show win4_3.index t (0 : Fin 2) * 64 + 1 * j.val = j.val; rw [e0]; omega
  | ⟨1, _⟩ => show win4_3.index t (1 : Fin 2) * 1 + 1 * o.val = o.val; rw [e1]; omega

/-- The output bias's window is the one entry at every point. -/
theorem blk4_apply (c : Dev nD) (t : Fin cfg4.N) (u : Fin 1) (o : Fin 1) :
    (iblk4 V c 4 t : Vec Ideal S1x1 .f32) (ix2 u o)
      = (V c (Pipeline.arrRef spec4 4) : Spec.S1x1.Idx → EReal) (ix2 u o) := by
  obtain ⟨-, -, -, -, -, -, -, -, e0, e1, -⟩ := idx_facts t
  unfold iblk4
  rw [View.read_apply]
  refine congrArg (V c (Pipeline.arrRef spec4 4)) ?_
  funext a; apply Fin.ext
  match a with
  | ⟨0, _⟩ => show win4_4.index t (0 : Fin 2) * 1 + 1 * u.val = u.val; rw [e0]; omega
  | ⟨1, _⟩ => show win4_4.index t (1 : Fin 2) * 1 + 1 * o.val = o.val; rw [e1]; omega

/-- One entry of what a point stores, over ANY five operands that agree with five whole arrays where the entry reads
    them: if block row `p` of `x` is row `n` of `X`, and the small operands are the whole small arrays, the
    stored value at (`p`, `o`) is the two-layer head of the arrays at (`n`, `o`). -/
theorem point_apply (X : Spec.SNx128.Idx → EReal) (W1 : Spec.S128x64.Idx → EReal) (B1 : Spec.S1x64.Idx → EReal)
    (W2 : Spec.S64x1.Idx → EReal) (B2 : Spec.S1x1.Idx → EReal)
    (x : Vec Ideal S5000x128 .f32) (w1 : Vec Ideal S128x64 .f32) (b1 : Vec Ideal S1x64 .f32)
    (w2 : Vec Ideal S64x1 .f32) (b2 : Vec Ideal S1x1 .f32) (p : Fin 5000) (o : Fin 1) (n : Fin 100000)
    (hx : ∀ q : Fin 128, x (ix2 p q) = X (ix2 n q))
    (hw1 : ∀ (q : Fin 128) (j : Fin 64), w1 (ix2 q j) = W1 (ix2 q j))
    (hb1 : ∀ j : Fin 64, b1 (ix2 0 j) = B1 (ix2 0 j))
    (hw2 : ∀ j : Fin 64, w2 (ix2 j o) = W2 (ix2 j o))
    (hb2 : b2 (ix2 0 o) = B2 (ix2 0 o)) :
    k4_pay1 x w1 b1 w2 b2 (ix2 p o) = Spec.mlp X W1 B1 W2 B2 (ix2 n o) := by
  rw [pay_apply]
  unfold Spec.mlp Spec.hidden
  refine congrArg₂ (· + ·) (Finset.sum_congr rfl fun j _ => ?_) hb2
  refine congrArg₂ (· * ·) (congrArg₂ max (congrArg₂ (· + ·) (Finset.sum_congr rfl fun q _ => ?_) (hb1 j)) rfl) (hw2 j)
  rw [hx q, hw1 q j]

/-- WHAT POINT `t` WRITES BACK: rows `5000 t … 5000 t + 4999` of the two-layer head of the five arrays as the region
    finds them. The body stores its value over the whole staging buffer; entry (`p`, `o`) of it reads row `p` of the
    activations' block, which is row `5000 t + p` of the activations, and the small operands whole. -/
theorem flushed_eq (c : Dev nD) (t : Fin cfg4.N) :
    (dat4 (F := Ideal) V c).flushed 5 t
      = ((cfg4.win 5).blk t).view.read (Elt Ideal)
          (Spec.mlp (V c (Pipeline.arrRef spec4 0)) (V c (Pipeline.arrRef spec4 1)) (V c (Pipeline.arrRef spec4 2))
            (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x64) hz, View.ld_unit_zero (S := S1x64) hz,
    View.ld_unit_zero (S := S64x1) hz, View.ld_unit_zero (S := S1x1) hz]
  obtain ⟨-, -, -, -, -, -, -, -, -, -, e0, e1⟩ := idx_facts t
  have ht : t.val < 20 := lt_of_lt_of_eq t.isLt N_4
  have key : ∀ y : S5000x1.Idx,
      k4_pay1 (iblk4 V c 0 t) (iblk4 V c 1 t) (iblk4 V c 2 t) (iblk4 V c 3 t) (iblk4 V c 4 t) y
        = Spec.mlp (V c (Pipeline.arrRef spec4 0)) (V c (Pipeline.arrRef spec4 1)) (V c (Pipeline.arrRef spec4 2))
            (V c (Pipeline.arrRef spec4 3)) (V c (Pipeline.arrRef spec4 4)) (((cfg4.win 5).blk t).view.emb y) := by
    intro y
    obtain ⟨p, o, rfl⟩ : ∃ (p : Fin 5000) (o : Fin 1), y = ix2 p o := ⟨y 0, y 1, eq_ix2 y⟩
    have hn : 5000 * t.val + p.val < 100000 := by have := p.isLt; omega
    have hemb : ((cfg4.win 5).blk t).view.emb (ix2 p o) = ix2 (⟨5000 * t.val + p.val, hn⟩ : Fin 100000) o := by
      funext a; apply Fin.ext
      match a with
      | ⟨0, _⟩ => show win4_5.index t (0 : Fin 2) * 5000 + 1 * p.val = 5000 * t.val + p.val; rw [e0]; omega
      | ⟨1, _⟩ => show win4_5.index t (1 : Fin 2) * 1 + 1 * o.val = o.val; rw [e1]; omega
    rw [hemb]
    exact point_apply (V c (Pipeline.arrRef spec4 0)) (V c (Pipeline.arrRef spec4 1)) (V c (Pipeline.arrRef spec4 2))
      (V c (Pipeline.arrRef spec4 3)) (V c (Pipeline.arrRef spec4 4))
      (iblk4 V c 0 t) (iblk4 V c 1 t) (iblk4 V c 2 t) (iblk4 V c 3 t) (iblk4 V c 4 t) p o ⟨5000 * t.val + p.val, hn⟩
      (fun q => blk0_apply V c t p q ⟨5000 * t.val + p.val, hn⟩ rfl) (fun q j => blk1_apply V c t q j)
      (fun j => blk2_apply V c t 0 j) (fun j => blk3_apply V c t j o) (blk4_apply V c t 0 o)
  funext y
  exact key y

/-- A row of the result is in point `t`'s block iff each of its coordinates lies in the block's range on that axis. -/
theorem mem_blk (t : Fin cfg4.N) (i : S100000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v104).slice (win4_5.rect t)).set ↔ _
  rw [View.set_slice_whole, Rect.mem_set_unit]
  exact Iff.rfl

/-- The twenty row blocks fill the result: row `r` is written back by point `r / 5000`. -/
theorem covered (i : S100000x1.Idx) :
    ∃ t : Fin cfg4.N, (cfg4.win 5).flush t = true ∧ i ∈ ((cfg4.win 5).blk t).view.set := by
  have hi0 : (i 0).val < 100000 := (i 0).isLt
  have hi1 : (i 1).val < 1 := (i 1).isLt
  obtain ⟨t, ht⟩ : ∃ t : Fin cfg4.N, t.val = (i 0).val / 5000 :=
    ⟨⟨(i 0).val / 5000, lt_of_lt_of_eq (by omega) N_4.symm⟩, rfl⟩
  obtain ⟨-, -, -, -, -, -, -, -, -, -, e0, e1⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 1 ≤ (i 1).val ∧ (i 1).val < win4_5.index t (1 : Fin 2) * 1 + 1
    rw [e1]; omega

/-- THE RESULT ARRAY after the region: the two-layer head of the five arrays as the region finds them — every point
    writes back its rows of that one function, and the points' blocks fill the array. -/
theorem final4 (c : Dev nD) :
    (dat4 (F := Ideal) V c).arrAt 5 cfg4.N
      = Spec.mlp (V c (Pipeline.arrRef spec4 0)) (V c (Pipeline.arrRef spec4 1)) (V c (Pipeline.arrRef spec4 2))
          (V c (Pipeline.arrRef spec4 3)) (V c (Pipeline.arrRef spec4 4)) :=
  (dat4 (F := Ideal) V c).arrAt_eq_of_cover 5
    (Spec.mlp (V c (Pipeline.arrRef spec4 0)) (V c (Pipeline.arrRef spec4 1)) (V c (Pipeline.arrRef spec4 2))
      (V c (Pipeline.arrRef spec4 3)) (V c (Pipeline.arrRef spec4 4)))
    (fun t _ => flushed_eq V c t) covered

end Cert.KernelIdeal.RegionMlp

end
-- ==== Proof.KernelValue.lean ====
/-
  The idealized kernel's result array as ONE function of the launch memory.  Region by region: the first product
  x · W₀; its aggregation over the graph, then the folded scale, shift and rectifier; the second product with W₁; its
  aggregation and the second scale, shift and rectifier; the two-layer head.  Each region's output array is the
  corresponding dense map (`Cert.Spec.mm`, `bnr`, `mlp`) of the arrays the region finds, and those are the host
  stretch's operations of what the region before left.
-/
import proofs.«142205_j80229989089422_1_alg».proof.Proof.KernelHost
import proofs.«142205_j80229989089422_1_alg».proof.Proof.RegionMm
import proofs.«142205_j80229989089422_1_alg».proof.Proof.RegionBn
import proofs.«142205_j80229989089422_1_alg».proof.Proof.RegionMlp

set_option maxRecDepth 16384

noncomputable section

namespace Cert.KernelIdeal.Whole

open Cert.KernelIdeal Cert.KernelIdeal.Gen Cert.KernelIdeal.HostVal Idealize.ShloMosaic Idealize.ShloMosaic.TcCoe Idealize.SL.Sem

variable (m : (ℓ : Loc nD τ sig) → Buf (Elt Ideal) ℓ) (ρ : Dev nD → PrngReg) (c : Dev nD)

/-- After region 0: the product of the node features with layer 0's weights. -/
theorem out0 : W4 m ρ c (Proc.devRef .tc main_v32) = (Cert.Spec.mm (m ((c.tc : Thread nD τ).loc main_arg0)) (Fn.wsl0 (m ((c.tc : Thread nD τ).loc main_arg2)))) := by
  have e : W4 m ρ c (Proc.devRef .tc main_v32) = (dat0 (V3 m ρ) c).arrAt 2 cfg0.N := W4_arr m ρ c 2
  rw [e, RegionMm.final0 (V3 m ρ) c]
  show Cert.Spec.mm (W3 m ρ c (Proc.devRef .tc main_arg0)) (W3 m ρ c (Proc.devRef .tc main_v31)) = _
  rw [b3_x, b3_w]

/-- After region 1: layer 0's hidden state. -/
theorem out1 : W6 m ρ c (Proc.devRef .tc main_v65) = (Cert.Spec.bnr (Fn.aggT (m ((c.tc : Thread nD τ).loc main_arg1)) (Cert.Spec.mm (m ((c.tc : Thread nD τ).loc main_arg0)) (Fn.wsl0 (m ((c.tc : Thread nD τ).loc main_arg2))))) (Fn.scaleRow (Fn.row0 (m ((c.tc : Thread nD τ).loc main_arg4))) (Fn.row0 (m ((c.tc : Thread nD τ).loc main_arg7)))) (Fn.shiftRow (Fn.row0 (m ((c.tc : Thread nD τ).loc main_arg5))) (Fn.row0 (m ((c.tc : Thread nD τ).loc main_arg3))) (Fn.row0 (m ((c.tc : Thread nD τ).loc main_arg6))) (Fn.row0 (m ((c.tc : Thread nD τ).loc main_arg4))) (Fn.row0 (m ((c.tc : Thread nD τ).loc main_arg7))))) := by
  have e : W6 m ρ c (Proc.devRef .tc main_v65) = (dat1 (V5 m ρ) c).arrAt 3 cfg1.N := W6_arr m ρ c 3
  rw [e, RegionBn.final1 (V5 m ρ) c]
  show Cert.Spec.bnr (W5 m ρ c (Proc.devRef .tc main_v45)) (W5 m ρ c (Proc.devRef .tc main_v63)) (W5 m ρ c (Proc.devRef .tc main_v64)) = _
  rw [s5_h, s5_sc, s5_sh, out0]

/-- After region 2: the product of layer 0's hidden state with layer 1's weights. -/
theorem out2 : W8 m ρ c (Proc.devRef .tc main_v68) = (Cert.Spec.mm (Cert.Spec.bnr (Fn.aggT (m ((c.tc : Thread nD τ).loc main_arg1)) (Cert.Spec.mm (m ((c.tc : Thread nD τ).loc main_arg0)) (Fn.wsl0 (m ((c.tc : Thread nD τ).loc main_arg2))))) (Fn.scaleRow (Fn.row0 (m ((c.tc : Thread nD τ).loc main_arg4))) (Fn.row0 (m ((c.tc : Thread nD τ).loc main_arg7)))) (Fn.shiftRow (Fn.row0 (m ((c.tc : Thread nD τ).loc main_arg5))) (Fn.row0 (m ((c.tc : Thread nD τ).loc main_arg3))) (Fn.row0 (m ((c.tc : Thread nD τ).loc main_arg6))) (Fn.row0 (m ((c.tc : Thread nD τ).loc main_arg4))) (Fn.row0 (m ((c.tc : Thread nD τ).loc main_arg7))))) (Fn.wsl1 (m ((c.tc : Thread nD τ).loc main_arg2)))) := by
  have e : W8 m ρ c (Proc.devRef .tc main_v68) = (dat2 (V7 m ρ) c).arrAt 2 cfg2.N := W8_arr m ρ c 2
  rw [e, RegionMm.final2 (V7 m ρ) c]
  show Cert.Spec.mm (W7 m ρ c (Proc.devRef .tc main_v65)) (W7 m ρ c (Proc.devRef .tc main_v67)) = _
  rw [s7_h, s7_w, out1]

/-- After region 3: layer 1's hidden state. -/
theorem out3 : W10 m ρ c (Proc.devRef .tc main_v101) = (Cert.Spec.bnr (Fn.aggT (m ((c.tc : Thread nD τ).loc main_arg1)) (Cert.Spec.mm (Cert.Spec.bnr (Fn.aggT (m ((c.tc : Thread nD τ).loc main_arg1)) (Cert.Spec.mm (m ((c.tc : Thread nD τ).loc main_arg0)) (Fn.wsl0 (m ((c.tc : Thread nD τ).loc main_arg2))))) (Fn.scaleRow (Fn.row0 (m ((c.tc : Thread nD τ).loc main_arg4))) (Fn.row0 (m ((c.tc : Thread nD τ).loc main_arg7)))) (Fn.shiftRow (Fn.row0 (m ((c.tc : Thread nD τ).loc main_arg5))) (Fn.row0 (m ((c.tc : Thread nD τ).loc main_arg3))) (Fn.row0 (m ((c.tc : Thread nD τ).loc main_arg6))) (Fn.row0 (m ((c.tc : Thread nD τ).loc main_arg4))) (Fn.row0 (m ((c.tc : Thread nD τ).loc main_arg7))))) (Fn.wsl1 (m ((c.tc : Thread nD τ).loc main_arg2))))) (Fn.scaleRow (Fn.row1 (m ((c.tc : Thread nD τ).loc main_arg4))) (Fn.row1 (m ((c.tc : Thread nD τ).loc main_arg7)))) (Fn.shiftRow (Fn.row1 (m ((c.tc : Thread nD τ).loc main_arg5))) (Fn.row1 (m ((c.tc : Thread nD τ).loc main_arg3))) (Fn.row1 (m ((c.tc : Thread nD τ).loc main_arg6))) (Fn.row1 (m ((c.tc : Thread nD τ).loc main_arg4))) (Fn.row1 (m ((c.tc : Thread nD τ).loc main_arg7))))) := by
  have e : W10 m ρ c (Proc.devRef .tc main_v101) = (dat3 (V9 m ρ) c).arrAt 3 cfg3.N := W10_arr m ρ c 3
  rw [e, RegionBn.final3 (V9 m ρ) c]
  show Cert.Spec.bnr (W9 m ρ c (Proc.devRef .tc main_v81)) (W9 m ρ c (Proc.devRef .tc main_v99)) (W9 m ρ c (Proc.devRef .tc main_v100)) = _
  rw [s9_h, s9_sc, s9_sh, out2]

/-- After region 4: the program's result. -/
theorem out4 : W12 m ρ c (Proc.devRef .tc main_v104) = (Cert.Spec.mlp (Cert.Spec.bnr (Fn.aggT (m ((c.tc : Thread nD τ).loc main_arg1)) (Cert.Spec.mm (Cert.Spec.bnr (Fn.aggT (m ((c.tc : Thread nD τ).loc main_arg1)) (Cert.Spec.mm (m ((c.tc : Thread nD τ).loc main_arg0)) (Fn.wsl0 (m ((c.tc : Thread nD τ).loc main_arg2))))) (Fn.scaleRow (Fn.row0 (m ((c.tc : Thread nD τ).loc main_arg4))) (Fn.row0 (m ((c.tc : Thread nD τ).loc main_arg7)))) (Fn.shiftRow (Fn.row0 (m ((c.tc : Thread nD τ).loc main_arg5))) (Fn.row0 (m ((c.tc : Thread nD τ).loc main_arg3))) (Fn.row0 (m ((c.tc : Thread nD τ).loc main_arg6))) (Fn.row0 (m ((c.tc : Thread nD τ).loc main_arg4))) (Fn.row0 (m ((c.tc : Thread nD τ).loc main_arg7))))) (Fn.wsl1 (m ((c.tc : Thread nD τ).loc main_arg2))))) (Fn.scaleRow (Fn.row1 (m ((c.tc : Thread nD τ).loc main_arg4))) (Fn.row1 (m ((c.tc : Thread nD τ).loc main_arg7)))) (Fn.shiftRow (Fn.row1 (m ((c.tc : Thread nD τ).loc main_arg5))) (Fn.row1 (m ((c.tc : Thread nD τ).loc main_arg3))) (Fn.row1 (m ((c.tc : Thread nD τ).loc main_arg6))) (Fn.row1 (m ((c.tc : Thread nD τ).loc main_arg4))) (Fn.row1 (m ((c.tc : Thread nD τ).loc main_arg7))))) (m ((c.tc : Thread nD τ).loc main_arg8)) (shapeCast _ (m ((c.tc : Thread nD τ).loc main_arg9)) shapeCasts_S64_S1x64) (m ((c.tc : Thread nD τ).loc main_arg10)) (shapeCast _ (m ((c.tc : Thread nD τ).loc main_arg11)) shapeCasts_S1_S1x1)) := by
  have e : W12 m ρ c (Proc.devRef .tc main_v104) = (dat4 (V11 m ρ) c).arrAt 5 cfg4.N := W12_arr m ρ c 5
  rw [e, RegionMlp.final4 (V11 m ρ) c]
  show Cert.Spec.mlp (W11 m ρ c (Proc.devRef .tc main_v101)) (W11 m ρ c (Proc.devRef .tc main_arg8)) (W11 m ρ c (Proc.devRef .tc main_v102))
      (W11 m ρ c (Proc.devRef .tc main_arg10)) (W11 m ρ c (Proc.devRef .tc main_v103)) = _
  rw [s11_h, at11_main_arg8, s11_b1, at11_main_arg10, s11_b2, out3]

end Cert.KernelIdeal.Whole

end
-- ==== Proof.BnLaw.lean ====
import Idealize.ShloMosaic.PureOps.Ideal
import Idealize.ShloMosaic.PureOps.Ideal.Laws
noncomputable section
namespace Cert.BnLaw
open Idealize.ShloMosaic

/-- The batch-norm affine map with its scale and shift folded together equals the unfolded form, at every extended
    real `S`: `S·(g·r) + (β + (b − μ)·(g·r)) = ((S + b − μ)·r)·g + β` with `r > 0`. At a finite `S` both sides are the
    same real polynomial. At `S = ±∞` both sides are the infinity of the sign of `±g` when `g ≠ 0` (an infinity times a
    nonzero real, plus a real), and both are `β` when `g = 0` (an infinity times zero is zero). -/
theorem bn_fold (S : EReal) (b mean g beta r : ℝ) (hr : 0 < r) :
    S * ((g : EReal) * (r : EReal)) + ((beta : EReal) + ((b : EReal) - (mean : EReal)) * ((g : EReal) * (r : EReal)))
    = (((S + (b : EReal)) - (mean : EReal)) * (r : EReal)) * (g : EReal) + (beta : EReal) := by
  have hgr : (g : EReal) * (r : EReal) = ((g * r : ℝ) : EReal) := (EReal.coe_mul g r).symm
  have hreal : (beta : EReal) + ((b : EReal) - (mean : EReal)) * ((g * r : ℝ) : EReal)
      = ((beta + (b - mean) * (g * r) : ℝ) : EReal) := by
    rw [← EReal.coe_sub, ← EReal.coe_mul, ← EReal.coe_add]
  rw [hgr, hreal]
  induction S using EReal.rec with
  | bot =>
    rw [EReal.bot_add, EReal.bot_sub, EReal.bot_mul_coe_of_pos hr]
    rcases lt_trichotomy g 0 with hg | hg | hg
    · rw [EReal.bot_mul_coe_of_neg (mul_neg_of_neg_of_pos hg hr), EReal.bot_mul_coe_of_neg hg,
        EReal.top_add_coe, EReal.top_add_coe]
    · subst hg
      simp
    · rw [EReal.bot_mul_coe_of_pos (mul_pos hg hr), EReal.bot_mul_coe_of_pos hg,
        EReal.bot_add, EReal.bot_add]
  | coe s =>
    norm_cast
    ring
  | top =>
    rw [EReal.top_add_coe, EReal.top_sub_coe, EReal.top_mul_coe_of_pos hr]
    rcases lt_trichotomy g 0 with hg | hg | hg
    · rw [EReal.top_mul_coe_of_neg (mul_neg_of_neg_of_pos hg hr), EReal.top_mul_coe_of_neg hg,
        EReal.bot_add, EReal.bot_add]
    · subst hg
      simp
    · rw [EReal.top_mul_coe_of_pos (mul_pos hg hr), EReal.top_mul_coe_of_pos hg,
        EReal.top_add_coe, EReal.top_add_coe]

/-- The reciprocal square root of a positive real is the positive real `(√x)⁻¹`: neither corner (negative argument,
    zero argument) is met. -/
theorem rsqrt_pos (x : ℝ) (hx : 0 < x) : ∃ r : ℝ, 0 < r ∧ Ideal.rsqrt ((x : ℝ) : EReal) = (r : EReal) := by
  refine ⟨(Real.sqrt x)⁻¹, inv_pos.mpr (Real.sqrt_pos.mpr hx), ?_⟩
  rw [Ideal.rsqrt_coe, if_neg (not_lt.mpr hx.le), if_neg hx.ne']

/-- The binary32 word `0x3727C5AC` (sign 0, exponent field 110, significand field 2606508) is a normal number: it
    denotes `(2^23 + 2606508) · 2^(110 − 127 − 23) = 10995116 · 2^(−40)`, a positive real (the nearest binary32 to
    `10⁻⁵`). -/
theorem eps_pos : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-- The all-zero binary32 word denotes `0`. -/
theorem zero_word : Ideal.ofBits .f32 0x00000000#32 = (0 : EReal) := Ideal.ofBits_zero_f32

end Cert.BnLaw
end
-- ==== Proof.BnArray.lean ====
/-
  The layer's elementwise tail, array by array.  The kernel multiplies the aggregated activations by one folded scale
  γ · rsqrt(var + ε) and adds one folded shift β + (b − mean) · (γ · rsqrt(var + ε)); the reference adds the bias, subtracts
  the running mean, multiplies by rsqrt(var + ε), by γ, and adds β.  Entry (n, f) of both reads feature f's entry of each
  parameter row; where the parameters are real numbers and var ≥ 0 (so that rsqrt(var + ε) is a positive real) the two
  are equal for EVERY extended-real activation, by distributivity over a real factor (`Cert.BnLaw.bn_fold`).
-/
import proofs.«142205_j80229989089422_1_alg».proof.Proof.KernelFn
import proofs.«142205_j80229989089422_1_alg».proof.Proof.Spec
import proofs.«142205_j80229989089422_1_alg».proof.Proof.BnLaw
import Idealize.ShloMosaic.Lib.ValueIdx
import Idealize.ShloMosaic.Lib.Pipeline.Value
import Idealize.ShloMosaic.Lib.IdealHost

noncomputable section

namespace Cert.BnArray

open Idealize.ShloMosaic Idealize.ShloMosaic.ValueIdx

abbrev Row := (⟨Cert.KernelIdeal.S128, .f32⟩ : BufTy).Contents (Elt Ideal)
abbrev Act := (⟨Cert.KernelIdeal.S100000x128, .f32⟩ : BufTy).Contents (Elt Ideal)

/-- A parameter row broadcast over the nodes reads, at (n, f), the row's entry f. -/
theorem bcr_apply (v : Row) (p : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 v) (ix2 (n0 := 100000) (n1 := 128) p q)
      = v (ix1 q) := by
  rw [broadcastInDim_apply _ _ _ (ix2 (n0 := 100000) (n1 := 128) p q) (ix2 (n0 := 1) (n1 := 128) 0 q) (fun a => by
        match a with
        | ⟨0, _⟩ => rfl
        | ⟨1, _⟩ => rfl),
      broadcastInDim_apply _ _ _ (ix2 (n0 := 1) (n1 := 128) 0 q) (ix1 q) (fun a => by
        match a with
        | ⟨0, _⟩ => rfl)]

/-- The folded scale row at feature q. -/
theorem scaleRow_apply (g var : Row) (q : Fin 128) :
    Cert.KernelIdeal.Fn.scaleRow g var (ix2 (n0 := 1) (n1 := 128) 0 q)
      = g (ix1 q) * Ideal.rsqrt (var (ix1 q) + Ideal.ofBits .f32 0x3727C5AC#32) := by
  unfold Cert.KernelIdeal.Fn.scaleRow Cert.KernelIdeal.Fn.rstd
  rw [shapeCast_apply _ _ (ix2 (n0 := 1) (n1 := 128) 0 q) (ix1 q) (by
    rw [Shape.rowMajor_val_one, Shape.rowMajor_val_two]
    simp)]
  rfl

/-- The folded shift row at feature q. -/
theorem shiftRow_apply (beta b mean g var : Row) (q : Fin 128) :
    Cert.KernelIdeal.Fn.shiftRow beta b mean g var (ix2 (n0 := 1) (n1 := 128) 0 q)
      = beta (ix1 q) + (b (ix1 q) - mean (ix1 q)) * (g (ix1 q) * Ideal.rsqrt (var (ix1 q) + Ideal.ofBits .f32 0x3727C5AC#32)) := by
  unfold Cert.KernelIdeal.Fn.shiftRow Cert.KernelIdeal.Fn.rstd
  rw [shapeCast_apply _ _ (ix2 (n0 := 1) (n1 := 128) 0 q) (ix1 q) (by
    rw [Shape.rowMajor_val_one, Shape.rowMajor_val_two]
    simp)]
  rfl

/-- The kernel's folded scale-and-shift is the reference's normalisation, for real parameters and a non-negative variance. -/
theorem bn_array (s : Act) (b mean var g beta : Row)
    (hb : ∀ j, ∃ r : ℝ, b j = (r : EReal)) (hmean : ∀ j, ∃ r : ℝ, mean j = (r : EReal))
    (hvar : ∀ j, ∃ r : ℝ, 0 ≤ r ∧ var j = (r : EReal))
    (hg : ∀ j, ∃ r : ℝ, g j = (r : EReal)) (hbeta : ∀ j, ∃ r : ℝ, beta j = (r : EReal)) :
    Cert.Spec.bnr s (Cert.KernelIdeal.Fn.scaleRow g var) (Cert.KernelIdeal.Fn.shiftRow beta b mean g var)
      = Cert.ReferenceIdeal.Fn.refBn s b mean var g beta := by
  funext i
  obtain ⟨p, q, rfl⟩ : ∃ (p : Fin 100000) (q : Fin 128), i = ix2 p q := ⟨i 0, i 1, eq_ix2 i⟩
  obtain ⟨rb, hb'⟩ := hb (ix1 q)
  obtain ⟨rm, hm'⟩ := hmean (ix1 q)
  obtain ⟨rg, hg'⟩ := hg (ix1 q)
  obtain ⟨rbe, hbe'⟩ := hbeta (ix1 q)
  obtain ⟨rv, hv0, hv'⟩ := hvar (ix1 q)
  obtain ⟨e, he, heps⟩ := Cert.BnLaw.eps_pos
  obtain ⟨r, hr, hrs⟩ := Cert.BnLaw.rsqrt_pos (rv + e) (by linarith)
  unfold Cert.Spec.bnr Cert.ReferenceIdeal.Fn.refBn
  show max (s (ix2 p q) * Cert.KernelIdeal.Fn.scaleRow g var (ix2 (n0 := 1) (n1 := 128) 0 q)
      + Cert.KernelIdeal.Fn.shiftRow beta b mean g var (ix2 (n0 := 1) (n1 := 128) 0 q)) 0 = _
  rw [scaleRow_apply, shiftRow_apply]
  simp only [maximumf_apply, addf_apply, mulf_apply, subf_apply]
  rw [bcr_apply b p q, bcr_apply mean p q, bcr_apply g p q, bcr_apply beta p q, bcr_apply _ p q]
  show max (s (ix2 p q) * (g (ix1 q) * Ideal.rsqrt (var (ix1 q) + Ideal.ofBits .f32 0x3727C5AC#32))
        + (beta (ix1 q) + (b (ix1 q) - mean (ix1 q)) * (g (ix1 q) * Ideal.rsqrt (var (ix1 q) + Ideal.ofBits .f32 0x3727C5AC#32)))) 0
      = max ((s (ix2 p q) + b (ix1 q) - mean (ix1 q)) * Ideal.rsqrt (var (ix1 q) + Ideal.ofBits .f32 0x3727C5AC#32) * g (ix1 q) + beta (ix1 q))
          (Ideal.ofBits .f32 0x00000000#32)
  rw [hb', hm', hg', hbe', hv', heps, ← EReal.coe_add, hrs, Ideal.ofBits_zero_f32, Cert.BnLaw.bn_fold _ rb rm rg rbe r hr]

end Cert.BnArray

end
-- ==== Proof.RefDense.lean ====
/-
  The reference's dense maps read entry by entry over the extended reals.

  A host matrix product of x : [M, K] and w : [K, N] is, at entry (n, f), the sum Σ_q x[n, q] · w[q, f] over the one
  contracted axis: so the layer's product is the whole-array product `Cert.Spec.mm`. The head adds to the first
  product a bias vector of 64 entries laid out as one row and repeated down the 100000 rows, clips at zero, multiplies
  by a 64 × 1 matrix and adds a one-entry bias repeated down the rows; a vector reshaped to one row holds the same
  entries, so the head is `Cert.Spec.mlp` of the same arrays with the two biases reshaped to rows.
-/
import proofs.«142205_j80229989089422_1_alg».proof.Proof.RefSpec
import proofs.«142205_j80229989089422_1_alg».proof.Proof.Spec
import proofs.«142205_j80229989089422_1_alg».proof.KernelIdeal
import proofs.«142205_j80229989089422_1_alg».proof.Proof.Gen.KernelIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefDense

open Idealize.ShloMosaic Idealize.ShloMosaic.ValueIdx

/-- The dimension numbers of the layer's product, [100000, 128] by [128, 128]: the left operand's columns contracted with the right operand's rows. -/
abbrev dotLayer : DotDims Cert.ReferenceIdeal.S100000x128 Cert.ReferenceIdeal.S128x128 Cert.ReferenceIdeal.S100000x128 := Cert.ReferenceIdeal.dot_S100000x128_S128x128_S100000x128_1_0_0_1_n_n

/-- At result entry `i` and contraction position `q` the left operand is read at row `i 0` … -/
theorem dotLayer_lhs_row (i : Cert.ReferenceIdeal.S100000x128.Idx) (q : dotLayer.contr.Idx) : (dotLayer.lhsIdx i q 0).val = (i 0).val := by
  unfold DotDims.lhsIdx
  rw [dif_neg (show ¬(0 : Fin Cert.ReferenceIdeal.S100000x128.rank) ∈ dotLayer.lhsBatch by decide), dif_pos (show (0 : Fin Cert.ReferenceIdeal.S100000x128.rank) ∈ dotLayer.lhsNonContracting by decide)]
  rfl
/-- … and column `q`; -/
theorem dotLayer_lhs_col (i : Cert.ReferenceIdeal.S100000x128.Idx) (q : dotLayer.contr.Idx) : (dotLayer.lhsIdx i q 1).val = (q ⟨0, by decide⟩).val :=
  dotLayer.lhsIdx_val_of_single rfl i q
/-- the right operand at row `q` … -/
theorem dotLayer_rhs_row (i : Cert.ReferenceIdeal.S100000x128.Idx) (q : dotLayer.contr.Idx) : (dotLayer.rhsIdx i q 0).val = (q ⟨0, by decide⟩).val :=
  dotLayer.rhsIdx_val_of_single rfl i q
/-- … and column `i 1`. -/
theorem dotLayer_rhs_col (i : Cert.ReferenceIdeal.S100000x128.Idx) (q : dotLayer.contr.Idx) : (dotLayer.rhsIdx i q 1).val = (i 1).val := by
  unfold DotDims.rhsIdx
  rw [dif_neg (show ¬(1 : Fin Cert.ReferenceIdeal.S128x128.rank) ∈ dotLayer.rhsBatch by decide), dif_pos (show (1 : Fin Cert.ReferenceIdeal.S128x128.rank) ∈ dotLayer.rhsNonContracting by decide)]
  rfl

/-- The product at entry (n, f) is `Σ_q x[n, q] · w[q, f]`, the contraction index replaced by its one coordinate. -/
theorem dotLayer_apply (x : FVec Ideal Cert.ReferenceIdeal.S100000x128 .f32) (w : FVec Ideal Cert.ReferenceIdeal.S128x128 .f32) (n : Fin 100000) (f : Fin 128) :
    Host.dotGeneral dotLayer none x w (ix2 n f) = ∑ q : Fin 128, x (ix2 n q) * w (ix2 q f) := by
  simp only [Host.dotGeneral]
  rw [Ideal.dotGeneral_apply, ← Equiv.sum_comp (contrEquiv1 dotLayer 128 rfl rfl).symm]
  refine Finset.sum_congr rfl fun k _ => ?_
  have hk := contrEquiv1_symm_val dotLayer 128 rfl rfl k
  have el : dotLayer.lhsIdx (ix2 n f) ((contrEquiv1 dotLayer 128 rfl rfl).symm k) = ix2 n k := funext fun a => Fin.ext (by
    match a with
    | ⟨0, _⟩ => exact dotLayer_lhs_row _ _
    | ⟨1, _⟩ => exact (dotLayer_lhs_col _ _).trans hk)
  have er : dotLayer.rhsIdx (ix2 n f) ((contrEquiv1 dotLayer 128 rfl rfl).symm k) = ix2 k f := funext fun a => Fin.ext (by
    match a with
    | ⟨0, _⟩ => exact (dotLayer_rhs_row _ _).trans hk
    | ⟨1, _⟩ => exact dotLayer_rhs_col _ _)
  rw [el, er]

/-- The layer's host product is the whole-array product, entry by entry. -/
theorem dot_eq_mm (x : (⟨Cert.ReferenceIdeal.S100000x128, .f32⟩ : BufTy).Contents (Elt Ideal)) (w : (⟨Cert.ReferenceIdeal.S128x128, .f32⟩ : BufTy).Contents (Elt Ideal)) :
    Host.dotGeneral (F := Ideal) (φ₁ := .f32) (φ₂ := .f32) Cert.ReferenceIdeal.dot_S100000x128_S128x128_S100000x128_1_0_0_1_n_n none x w = Cert.Spec.mm x w := by
  funext i
  obtain ⟨n, f, rfl⟩ : ∃ (n : Fin 100000) (f : Fin 128), i = ix2 n f := ⟨i 0, i 1, eq_ix2 i⟩
  exact dotLayer_apply x w n f

/-- The dimension numbers of the head's first product, [100000, 128] by [128, 64]: the left operand's columns contracted with the right operand's rows. -/
abbrev dotHidden : DotDims Cert.ReferenceIdeal.S100000x128 Cert.ReferenceIdeal.S128x64 Cert.ReferenceIdeal.S100000x64 := Cert.ReferenceIdeal.dot_S100000x128_S128x64_S100000x64_1_0_0_1_n_n

/-- At result entry `i` and contraction position `q` the left operand is read at row `i 0` … -/
theorem dotHidden_lhs_row (i : Cert.ReferenceIdeal.S100000x64.Idx) (q : dotHidden.contr.Idx) : (dotHidden.lhsIdx i q 0).val = (i 0).val := by
  unfold DotDims.lhsIdx
  rw [dif_neg (show ¬(0 : Fin Cert.ReferenceIdeal.S100000x128.rank) ∈ dotHidden.lhsBatch by decide), dif_pos (show (0 : Fin Cert.ReferenceIdeal.S100000x128.rank) ∈ dotHidden.lhsNonContracting by decide)]
  rfl
/-- … and column `q`; -/
theorem dotHidden_lhs_col (i : Cert.ReferenceIdeal.S100000x64.Idx) (q : dotHidden.contr.Idx) : (dotHidden.lhsIdx i q 1).val = (q ⟨0, by decide⟩).val :=
  dotHidden.lhsIdx_val_of_single rfl i q
/-- the right operand at row `q` … -/
theorem dotHidden_rhs_row (i : Cert.ReferenceIdeal.S100000x64.Idx) (q : dotHidden.contr.Idx) : (dotHidden.rhsIdx i q 0).val = (q ⟨0, by decide⟩).val :=
  dotHidden.rhsIdx_val_of_single rfl i q
/-- … and column `i 1`. -/
theorem dotHidden_rhs_col (i : Cert.ReferenceIdeal.S100000x64.Idx) (q : dotHidden.contr.Idx) : (dotHidden.rhsIdx i q 1).val = (i 1).val := by
  unfold DotDims.rhsIdx
  rw [dif_neg (show ¬(1 : Fin Cert.ReferenceIdeal.S128x64.rank) ∈ dotHidden.rhsBatch by decide), dif_pos (show (1 : Fin Cert.ReferenceIdeal.S128x64.rank) ∈ dotHidden.rhsNonContracting by decide)]
  rfl

/-- The product at entry (n, f) is `Σ_q x[n, q] · w[q, f]`, the contraction index replaced by its one coordinate. -/
theorem dotHidden_apply (x : FVec Ideal Cert.ReferenceIdeal.S100000x128 .f32) (w : FVec Ideal Cert.ReferenceIdeal.S128x64 .f32) (n : Fin 100000) (f : Fin 64) :
    Host.dotGeneral dotHidden none x w (ix2 n f) = ∑ q : Fin 128, x (ix2 n q) * w (ix2 q f) := by
  simp only [Host.dotGeneral]
  rw [Ideal.dotGeneral_apply, ← Equiv.sum_comp (contrEquiv1 dotHidden 128 rfl rfl).symm]
  refine Finset.sum_congr rfl fun k _ => ?_
  have hk := contrEquiv1_symm_val dotHidden 128 rfl rfl k
  have el : dotHidden.lhsIdx (ix2 n f) ((contrEquiv1 dotHidden 128 rfl rfl).symm k) = ix2 n k := funext fun a => Fin.ext (by
    match a with
    | ⟨0, _⟩ => exact dotHidden_lhs_row _ _
    | ⟨1, _⟩ => exact (dotHidden_lhs_col _ _).trans hk)
  have er : dotHidden.rhsIdx (ix2 n f) ((contrEquiv1 dotHidden 128 rfl rfl).symm k) = ix2 k f := funext fun a => Fin.ext (by
    match a with
    | ⟨0, _⟩ => exact (dotHidden_rhs_row _ _).trans hk
    | ⟨1, _⟩ => exact dotHidden_rhs_col _ _)
  rw [el, er]

/-- The dimension numbers of the head's second product, [100000, 64] by [64, 1]: the left operand's columns contracted with the right operand's rows. -/
abbrev dotOut : DotDims Cert.ReferenceIdeal.S100000x64 Cert.ReferenceIdeal.S64x1 Cert.ReferenceIdeal.S100000x1 := Cert.ReferenceIdeal.dot_S100000x64_S64x1_S100000x1_1_0_0_1_n_n

/-- At result entry `i` and contraction position `q` the left operand is read at row `i 0` … -/
theorem dotOut_lhs_row (i : Cert.ReferenceIdeal.S100000x1.Idx) (q : dotOut.contr.Idx) : (dotOut.lhsIdx i q 0).val = (i 0).val := by
  unfold DotDims.lhsIdx
  rw [dif_neg (show ¬(0 : Fin Cert.ReferenceIdeal.S100000x64.rank) ∈ dotOut.lhsBatch by decide), dif_pos (show (0 : Fin Cert.ReferenceIdeal.S100000x64.rank) ∈ dotOut.lhsNonContracting by decide)]
  rfl
/-- … and column `q`; -/
theorem dotOut_lhs_col (i : Cert.ReferenceIdeal.S100000x1.Idx) (q : dotOut.contr.Idx) : (dotOut.lhsIdx i q 1).val = (q ⟨0, by decide⟩).val :=
  dotOut.lhsIdx_val_of_single rfl i q
/-- the right operand at row `q` … -/
theorem dotOut_rhs_row (i : Cert.ReferenceIdeal.S100000x1.Idx) (q : dotOut.contr.Idx) : (dotOut.rhsIdx i q 0).val = (q ⟨0, by decide⟩).val :=
  dotOut.rhsIdx_val_of_single rfl i q
/-- … and column `i 1`. -/
theorem dotOut_rhs_col (i : Cert.ReferenceIdeal.S100000x1.Idx) (q : dotOut.contr.Idx) : (dotOut.rhsIdx i q 1).val = (i 1).val := by
  unfold DotDims.rhsIdx
  rw [dif_neg (show ¬(1 : Fin Cert.ReferenceIdeal.S64x1.rank) ∈ dotOut.rhsBatch by decide), dif_pos (show (1 : Fin Cert.ReferenceIdeal.S64x1.rank) ∈ dotOut.rhsNonContracting by decide)]
  rfl

/-- The product at entry (n, f) is `Σ_q x[n, q] · w[q, f]`, the contraction index replaced by its one coordinate. -/
theorem dotOut_apply (x : FVec Ideal Cert.ReferenceIdeal.S100000x64 .f32) (w : FVec Ideal Cert.ReferenceIdeal.S64x1 .f32) (n : Fin 100000) (f : Fin 1) :
    Host.dotGeneral dotOut none x w (ix2 n f) = ∑ q : Fin 64, x (ix2 n q) * w (ix2 q f) := by
  simp only [Host.dotGeneral]
  rw [Ideal.dotGeneral_apply, ← Equiv.sum_comp (contrEquiv1 dotOut 64 rfl rfl).symm]
  refine Finset.sum_congr rfl fun k _ => ?_
  have hk := contrEquiv1_symm_val dotOut 64 rfl rfl k
  have el : dotOut.lhsIdx (ix2 n f) ((contrEquiv1 dotOut 64 rfl rfl).symm k) = ix2 n k := funext fun a => Fin.ext (by
    match a with
    | ⟨0, _⟩ => exact dotOut_lhs_row _ _
    | ⟨1, _⟩ => exact (dotOut_lhs_col _ _).trans hk)
  have er : dotOut.rhsIdx (ix2 n f) ((contrEquiv1 dotOut 64 rfl rfl).symm k) = ix2 k f := funext fun a => Fin.ext (by
    match a with
    | ⟨0, _⟩ => exact (dotOut_rhs_row _ _).trans hk
    | ⟨1, _⟩ => exact dotOut_rhs_col _ _)
  rw [el, er]

/-- A 64-vector laid out as one row and repeated down the rows reads, at (n, j), its entry j. -/
theorem bias64_apply (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S100000x64 (![0, 1] : Fin 2 → Fin Cert.ReferenceIdeal.S100000x64.rank))
    (a : Cert.ReferenceIdeal.S64.Idx → EReal) (n : Fin 100000) (j : Fin 64) :
    broadcastInDim Cert.ReferenceIdeal.S100000x64 ![0, 1] h2 (broadcastInDim Cert.ReferenceIdeal.S1x64 ![1] h1 a) (ix2 n j) = a (ix1 j) :=
  (broadcastInDim_apply _ h2 _ (ix2 n j) (ix2 (0 : Fin 1) j) (fun d => by match d with | ⟨0, _⟩ => rfl | ⟨1, _⟩ => rfl)).trans
    (broadcastInDim_apply _ h1 a (ix2 (0 : Fin 1) j) (ix1 j) (fun d => by match d with | ⟨0, _⟩ => rfl))

/-- A one-entry vector laid out as a 1 × 1 array and repeated down the rows reads its entry everywhere. -/
theorem bias1_apply (h1 : Cert.ReferenceIdeal.S1.BroadcastsInDim Cert.ReferenceIdeal.S1x1 (![1] : Fin 1 → Fin Cert.ReferenceIdeal.S1x1.rank))
    (h2 : Cert.ReferenceIdeal.S1x1.BroadcastsInDim Cert.ReferenceIdeal.S100000x1 (![0, 1] : Fin 2 → Fin Cert.ReferenceIdeal.S100000x1.rank))
    (a : Cert.ReferenceIdeal.S1.Idx → EReal) (n : Fin 100000) (o : Fin 1) :
    broadcastInDim Cert.ReferenceIdeal.S100000x1 ![0, 1] h2 (broadcastInDim Cert.ReferenceIdeal.S1x1 ![1] h1 a) (ix2 n o) = a (ix1 (0 : Fin 1)) :=
  (broadcastInDim_apply _ h2 _ (ix2 n o) (ix2 (0 : Fin 1) (0 : Fin 1)) (fun d => by match d with | ⟨0, _⟩ => rfl | ⟨1, _⟩ => rfl)).trans
    (broadcastInDim_apply _ h1 a (ix2 (0 : Fin 1) (0 : Fin 1)) (ix1 (0 : Fin 1)) (fun d => by match d with | ⟨0, _⟩ => rfl))

/-- The zero word repeated over an array reads 0 everywhere. -/
theorem zero64_apply (h0 : Cert.ReferenceIdeal.S_.BroadcastsInDim Cert.ReferenceIdeal.S100000x64 (![] : Fin 0 → Fin Cert.ReferenceIdeal.S100000x64.rank))
    (i : Cert.ReferenceIdeal.S100000x64.Idx) :
    broadcastInDim Cert.ReferenceIdeal.S100000x64 ![] h0 (constant (F := Ideal) Cert.ReferenceIdeal.S_ .f32 0x00000000#32) i = (0 : EReal) :=
  (broadcastInDim_scalar_apply h0 _ i).trans Ideal.ofBits_zero_f32

/-- The reference's head is the two-layer map of the specification, with each bias vector reshaped to a row: at node n
    both are `Σ_j max (Σ_q h[n, q] · w1[q, j] + b1[j]) 0 · w2[j, 0] + b2[0]`. -/
theorem head_eq_mlp (h : (⟨Cert.ReferenceIdeal.S100000x128, .f32⟩ : BufTy).Contents (Elt Ideal)) (a8 : (⟨Cert.ReferenceIdeal.S128x64, .f32⟩ : BufTy).Contents (Elt Ideal))
    (a9 : (⟨Cert.ReferenceIdeal.S64, .f32⟩ : BufTy).Contents (Elt Ideal)) (a10 : (⟨Cert.ReferenceIdeal.S64x1, .f32⟩ : BufTy).Contents (Elt Ideal))
    (a11 : (⟨Cert.ReferenceIdeal.S1, .f32⟩ : BufTy).Contents (Elt Ideal)) :
    Cert.ReferenceIdeal.Fn.refHead (F := Ideal) h a8 a9 a10 a11
      = Cert.Spec.mlp h a8 (shapeCast Cert.KernelIdeal.S1x64 a9 Cert.KernelIdeal.Gen.shapeCasts_S64_S1x64) a10
          (shapeCast Cert.KernelIdeal.S1x1 a11 Cert.KernelIdeal.Gen.shapeCasts_S1_S1x1) := by
  funext i
  obtain ⟨n, o, rfl⟩ : ∃ (n : Fin 100000) (o : Fin 1), i = ix2 n o := ⟨i 0, i 1, eq_ix2 i⟩
  obtain rfl : o = 0 := Subsingleton.elim _ _
  unfold Cert.ReferenceIdeal.Fn.refHead Cert.Spec.mlp Cert.Spec.hidden
  refine congrArg₂ (· + ·) ?_ ?_
  · refine (dotOut_apply _ a10 n 0).trans (Finset.sum_congr rfl fun j _ => ?_)
    refine congrArg₂ (· * ·) ?_ rfl
    exact congrArg₂ max
      (congrArg₂ (· + ·) (dotHidden_apply h a8 n j) ((bias64_apply _ _ a9 n j).trans (shapeCast_a_1a_apply a9 _ 0 j).symm))
      (zero64_apply _ (ix2 n j))
  · exact (bias1_apply _ _ a11 n 0).trans (shapeCast_a_1a_apply a11 _ 0 0).symm

end Cert.RefDense

end
-- ==== Proof.PreFacts.lean ====
/-
  The precondition `finite_inputs`, read back as facts about five of the inputs. The printed predicate is a
  conjunction (an `and` of `i1` scalars) of one `all(|x| < +∞)` per float input and, last, `all(x₇ ≥ 0)`. Each
  `all` is a reduction by `and` over every axis, so its being 1 gives the compared bit at every index. In the
  extended reals `|x| = max x (-x)` and the pattern 0x7F800000 denotes `⊤`, so `|x| < ⊤` excludes both `⊤`
  and `⊥` (whose negation is `⊤`): the element is a real number. The zero pattern denotes `0`, so the last
  conjunct gives `0 ≤ x₇`, and together with finiteness a real `r ≥ 0`.
-/
import proofs.«142205_j80229989089422_1_alg».proof.Pre_finite_inputs
import Idealize.ShloMosaic.PureOps.Ideal
import Idealize.ShloMosaic.PureOps.Ideal.Laws
import Idealize.ShloMosaic.Lib.ReduceAll
import Idealize.ShloMosaic.Lib.IdealHost

noncomputable section

namespace Cert.PreFacts

open Cert.Pre_finite_inputs
open Idealize.ShloMosaic Idealize.ShloMosaic.ValueIdx

/-- The rank-0 shape has exactly one index. -/
instance : Subsingleton S_.Idx := ⟨fun a b => funext fun d => d.elim0⟩

/-- The f32 pattern 0x7F800000 denotes `+∞`. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- `|x| < +∞` in the extended reals says `x` is a real number: `|x| = max x (-x)` is `⊤` at both `⊤` and `⊥`. -/
theorem real_of_abs_lt_top (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  simp only [decide_eq_true_eq, max_lt_iff] at h
  obtain ⟨h1, h2⟩ := h
  induction x using EReal.rec with
  | bot => simp at h2
  | coe r => exact ⟨r, rfl⟩
  | top => simp at h1

/-- `x ≥ 0` against the zero pattern says `0 ≤ x`. -/
theorem nonneg_of_oge_zero (x : EReal)
    (h : Ideal.cmp .oge x (Ideal.ofBits .f32 0x00000000#32) = 1#1) : 0 ≤ x := by
  rw [Ideal.ofBits_zero_f32] at h
  unfold Ideal.cmp at h
  rw [ofBool_eq_one] at h
  simpa only [decide_eq_true_eq] using h

/-- One `all(|a| < +∞)` conjunct over a [2, 128] array: every element is a real number. -/
theorem all_real (a : FVec Ideal S2x128 .f32) (hb : S_.BroadcastsInDim S2x128 (![] : Fin 0 → Fin S2x128.rank))
    (hr : S2x128.ReducesTo [0, 1] S_) (hu : 0 < S_.numel)
    (e : Host.reduce IntOp.andi
          (cmpf .olt (Host.absf a) (broadcastInDim S2x128 ![] hb (constant S_ .f32 0x7F800000#32)))
          (constantI S_ 1 1#1) hr hu ix0 = 1#1)
    (i : S2x128.Idx) : ∃ r : ℝ, a i = (r : EReal) :=
  real_of_abs_lt_top (a i) (Host.reduce_andi_all _ _ hr hu ix0 e i)

/-- The `all(a ≥ 0)` conjunct over a [2, 128] array: every element is at least zero. -/
theorem all_nonneg (a : FVec Ideal S2x128 .f32) (hb : S_.BroadcastsInDim S2x128 (![] : Fin 0 → Fin S2x128.rank))
    (hr : S2x128.ReducesTo [0, 1] S_) (hu : 0 < S_.numel)
    (e : Host.reduce IntOp.andi
          (cmpf .oge a (broadcastInDim S2x128 ![] hb (constant S_ .f32 0x00000000#32)))
          (constantI S_ 1 1#1) hr hu ix0 = 1#1)
    (i : S2x128.Idx) : 0 ≤ a i :=
  nonneg_of_oge_zero (a i) (Host.reduce_andi_all _ _ hr hu ix0 e i)

/-- The precondition decoded at the five parameter arrays the proof needs: the bias, the scale, the shift and the
    running mean are real at every index, and the running variance is a real number that is at least zero. -/
theorem facts [Cert.Pre_finite_inputs.Facts]
    (a0 : FVec Ideal S100000x128 .f32) (a1 : IVec S2x1600000 32) (a2 : FVec Ideal S2x128x128 .f32)
    (a3 a4 a5 a6 a7 : FVec Ideal S2x128 .f32) (a8 : FVec Ideal S128x64 .f32) (a9 : FVec Ideal S64 .f32)
    (a10 : FVec Ideal S64x1 .f32) (a11 : FVec Ideal S1 .f32)
    (h : Cert.Pre_finite_inputs.fn (F := Ideal) a0 a1 a2 a3 a4 a5 a6 a7 a8 a9 a10 a11 = fun _ => 1#1) :
    (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, 0 ≤ r ∧ a7 i = (r : EReal)) := by
  -- the claim at the one index of the rank-0 result, with the chain of operations in view
  have e := congrFun h ix0
  dsimp only [fn, fn_part1, fn_part2, fn_part3, andi] at e
  -- the conjunction, peeled from its last conjunct inwards
  obtain ⟨e, h7n⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨-, h3⟩ := IntOp.andi_eq_one.1 e
  refine ⟨all_real a3 _ _ _ h3, all_real a4 _ _ _ h4, all_real a5 _ _ _ h5, all_real a6 _ _ _ h6, fun i => ?_⟩
  -- the variance: real by the finiteness conjunct, and at least zero by the last one
  obtain ⟨r, hr⟩ := all_real a7 _ _ _ h7 i
  have h0 : (0 : EReal) ≤ a7 i := all_nonneg a7 _ _ _ h7n i
  rw [hr] at h0
  exact ⟨r, EReal.coe_nonneg.1 h0, hr⟩

end Cert.PreFacts

end
-- ==== Proof.KernelEqRef.lean ====
/-
  The idealized kernel's result is the reference's function of the same arguments, under the precondition.
  The kernel's two matrix products are the host's `dot_general`s (the same sums over the contracted axis); its folded
  scale-and-shift after each aggregation is the reference's bias, normalisation, scale and shift (distributivity over
  the real factor γ · rsqrt(var + ε): here the precondition is used — the parameters are real and var ≥ 0); its head is the
  reference's head; the aggregation over the graph is the same operations on both sides and is never opened.
-/
import proofs.«142205_j80229989089422_1_alg».proof.Proof.KernelValue
import proofs.«142205_j80229989089422_1_alg».proof.Proof.BnArray
import proofs.«142205_j80229989089422_1_alg».proof.Proof.RefDense
import proofs.«142205_j80229989089422_1_alg».proof.Proof.PreFacts
import proofs.«142205_j80229989089422_1_alg».proof.Proof.Gen.Pre_finite_inputs

set_option maxRecDepth 16384

noncomputable section

namespace Cert.KernelIdeal.Whole

open Cert.KernelIdeal Cert.KernelIdeal.Gen Idealize.ShloMosaic Idealize.ShloMosaic.TcCoe Idealize.SL.Sem

abbrev Stacked := (⟨S2x128, .f32⟩ : BufTy).Contents (Elt Ideal)

/-- A layer's row of a stacked parameter is real where the stacked array is: each entry of the row IS an entry of the array. -/
theorem row0_real (a : Stacked) (h : ∀ i, ∃ r : ℝ, a i = (r : EReal)) (j : S128.Idx) : ∃ r : ℝ, Fn.row0 a j = (r : EReal) := h _
theorem row1_real (a : Stacked) (h : ∀ i, ∃ r : ℝ, a i = (r : EReal)) (j : S128.Idx) : ∃ r : ℝ, Fn.row1 a j = (r : EReal) := h _
theorem row0_nonneg (a : Stacked) (h : ∀ i, ∃ r : ℝ, 0 ≤ r ∧ a i = (r : EReal)) (j : S128.Idx) : ∃ r : ℝ, 0 ≤ r ∧ Fn.row0 a j = (r : EReal) := h _
theorem row1_nonneg (a : Stacked) (h : ∀ i, ∃ r : ℝ, 0 ≤ r ∧ a i = (r : EReal)) (j : S128.Idx) : ∃ r : ℝ, 0 ≤ r ∧ Fn.row1 a j = (r : EReal) := h _

variable (m : (ℓ : Loc nD τ sig) → Buf (Elt Ideal) ℓ) (ρ : Dev nD → PrngReg) (c : Dev nD)

/-- The result buffer's last contents are the reference's map of the argument arrays. -/
theorem result_eq
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1) :
    W12 m ρ c (Proc.devRef .tc main_v104) = Cert.ReferenceIdeal.Fn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  obtain ⟨h3, h4, h5, h6, h7⟩ := Cert.PreFacts.facts _ _ _ _ _ _ _ _ _ _ _ _ hpre
  rw [out4 m ρ c, ← Cert.RefDense.head_eq_mlp]
  rw [Cert.BnArray.bn_array _ (Fn.row1 (m ((c.tc : Thread nD τ).loc main_arg3))) (Fn.row1 (m ((c.tc : Thread nD τ).loc main_arg6))) (Fn.row1 (m ((c.tc : Thread nD τ).loc main_arg7))) (Fn.row1 (m ((c.tc : Thread nD τ).loc main_arg4))) (Fn.row1 (m ((c.tc : Thread nD τ).loc main_arg5))) (row1_real _ h3) (row1_real _ h6) (row1_nonneg _ h7) (row1_real _ h4) (row1_real _ h5)]
  rw [Cert.BnArray.bn_array _ (Fn.row0 (m ((c.tc : Thread nD τ).loc main_arg3))) (Fn.row0 (m ((c.tc : Thread nD τ).loc main_arg6))) (Fn.row0 (m ((c.tc : Thread nD τ).loc main_arg7))) (Fn.row0 (m ((c.tc : Thread nD τ).loc main_arg4))) (Fn.row0 (m ((c.tc : Thread nD τ).loc main_arg5))) (row0_real _ h3) (row0_real _ h6) (row0_nonneg _ h7) (row0_real _ h4) (row0_real _ h5)]
  rw [← Cert.RefDense.dot_eq_mm, ← Cert.RefDense.dot_eq_mm]
  rw [Fn.aggT_eq, Fn.aggT_eq]
  rfl

end Cert.KernelIdeal.Whole

end
-- ==== Proof.lean ====
/-
  A two-layer graph convolution network with batch normalisation and a two-layer head, over 100000 nodes with 128 features:
  the pipelined kernel program against its plain reference.

  Per layer the reference computes  relu( ((A·(h·W) + b − mean) · rsqrt(var + ε)) · γ + β ),  where A·t is every node's
  weighted sum of its in-neighbours' rows of t (a gather, a scaling by the symmetric edge weight, a scatter-add); the
  kernel computes h·W in one pipelined region, A·(h·W) with the same host operations, and
  relu( A·(h·W) · s + t )  in a second region with the folded  s = γ · rsqrt(var + ε)  and  t = β + (b − mean) · s.
  Over the extended reals the two agree when s and t are real: (x + c) · k = x · k + c · k holds for every extended real x
  and real c, k.  That is where the precondition is used (the parameters are finite, and var ≥ 0 makes rsqrt(var + ε) a
  positive real); the activations themselves are not assumed finite.  The head  relu(h·W₁ + b₁)·W₂ + b₂  is one more
  region against the same expression on the host.  Matrix products are the same sums on both sides.

  The three frames are the generated frame certificates (the reference's from its run, the result dropped); the
  idealization changes no operation, so `preserves` is trivial; `algebraic` pairs the kernel's run with its result
  named (Proof/KernelRun.lean, Proof/KernelEqRef.lean) with the reference's run (Proof/RefRun.lean, Proof/RefSpec.lean).
-/
import proofs.«142205_j80229989089422_1_alg».proof.Defs
import proofs.«142205_j80229989089422_1_alg».proof.Proof.Gen.Kernel
import proofs.«142205_j80229989089422_1_alg».proof.Proof.Gen.Kernel.Skeleton
import proofs.«142205_j80229989089422_1_alg».proof.Proof.Gen.Kernel.Launch
import proofs.«142205_j80229989089422_1_alg».proof.Proof.Gen.Kernel.Points
import proofs.«142205_j80229989089422_1_alg».proof.Proof.Gen.Kernel.Frame
import proofs.«142205_j80229989089422_1_alg».proof.Proof.Gen.KernelIdeal
import proofs.«142205_j80229989089422_1_alg».proof.Proof.Gen.KernelIdeal.Skeleton
import proofs.«142205_j80229989089422_1_alg».proof.Proof.Gen.KernelIdeal.Launch
import proofs.«142205_j80229989089422_1_alg».proof.Proof.Gen.KernelIdeal.Points
import proofs.«142205_j80229989089422_1_alg».proof.Proof.Gen.KernelIdeal.Frame
import proofs.«142205_j80229989089422_1_alg».proof.Proof.Gen.ReferenceIdeal
import proofs.«142205_j80229989089422_1_alg».proof.Proof.Gen.Pre_finite_inputs
import proofs.«142205_j80229989089422_1_alg».proof.Proof.KernelRun
import proofs.«142205_j80229989089422_1_alg».proof.Proof.KernelEqRef
import proofs.«142205_j80229989089422_1_alg».proof.Proof.RefRun
import proofs.«142205_j80229989089422_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's map of the (agreeing) argument arrays in their result buffers. -/
theorem algebraic : Cert.algebraic_KernelIdeal_ReferenceIdeal := by
  intro m ρ m' ρ' hpre hagree
  refine ⟨fun c => Cert.ReferenceIdeal.Fn.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Whole.result_eq m ρ c (hpre c)), (h c).2⟩)
      (Cert.KernelIdeal.ValueRun.run (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11⟩ := hagree c
    rw [(h c).1, Cert.ReferenceIdeal.Fn.res_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
